-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x15x64x128x1 : Shape := ⟨5, ![256, 15, 64, 128, 1]⟩
abbrev S3584x3 : Shape := ⟨2, ![3584, 3]⟩
abbrev S3584 : Shape := ⟨1, ![3584]⟩
abbrev S2720x3 : Shape := ⟨2, ![2720, 3]⟩
abbrev S2720 : Shape := ⟨1, ![2720]⟩
abbrev S2880x3 : Shape := ⟨2, ![2880, 3]⟩
abbrev S2880 : Shape := ⟨1, ![2880]⟩
abbrev S_ : Shape := ⟨0, ![]⟩

class Facts : Prop where
  bcast_S_S256x15x64x128x1 : S_.BroadcastsInDim S256x15x64x128x1 (![] : Fin 0 → Fin S256x15x64x128x1.rank)
  reducesTo_S256x15x64x128x1_S_d0_1_2_3_4 : S256x15x64x128x1.ReducesTo [0, 1, 2, 3, 4] S_
  h_S_ : 0 < S_.numel
  bcast_S_S3584x3 : S_.BroadcastsInDim S3584x3 (![] : Fin 0 → Fin S3584x3.rank)
  reducesTo_S3584x3_S_d0_1 : S3584x3.ReducesTo [0, 1] S_
  bcast_S_S3584 : S_.BroadcastsInDim S3584 (![] : Fin 0 → Fin S3584.rank)
  reducesTo_S3584_S_d0 : S3584.ReducesTo [0] S_
  bcast_S_S2720x3 : S_.BroadcastsInDim S2720x3 (![] : Fin 0 → Fin S2720x3.rank)
  reducesTo_S2720x3_S_d0_1 : S2720x3.ReducesTo [0, 1] S_
  bcast_S_S2720 : S_.BroadcastsInDim S2720 (![] : Fin 0 → Fin S2720.rank)
  reducesTo_S2720_S_d0 : S2720.ReducesTo [0] S_
  bcast_S_S2880x3 : S_.BroadcastsInDim S2880x3 (![] : Fin 0 → Fin S2880x3.rank)
  reducesTo_S2880x3_S_d0_1 : S2880x3.ReducesTo [0, 1] S_
  bcast_S_S2880 : S_.BroadcastsInDim S2880 (![] : Fin 0 → Fin S2880.rank)
  reducesTo_S2880_S_d0 : S2880.ReducesTo [0] S_

variable [Facts]

def fn_part1 {F : FTy → Type} [FloatOps F] (main_arg4 : FVec F S2720 .f32) (main_arg5 : FVec F S2880x3 .f32) (main_arg6 : FVec F S2880 .f32) (main_v13 : IVec S_ 1) (main_v16 : IVec S2720x3 1) : IVec S_ 1 :=
  let main_c_5 : IVec S_ 1 := constantI S_ 1 1#1
  let main_v17 : IVec S_ 1 := (fun x v => Host.reduce IntOp.andi x v reducesTo_S2720x3_S_d0_1 h_S_) main_v16 main_c_5
  let main_v18 : IVec S_ 1 := andi main_v13 main_v17
  let main_v19 : FVec F S2720 .f32 := Host.absf main_arg4
  let main_cst_6 : FVec F S_ .f32 := constant S_ .f32 0x7F800000#32
  let main_v20 : FVec F S2720 .f32 := broadcastInDim S2720 ![] bcast_S_S2720 main_cst_6
  let main_v21 : IVec S2720 1 := cmpf .olt main_v19 main_v20
  let main_c_7 : IVec S_ 1 := constantI S_ 1 1#1
  let main_v22 : IVec S_ 1 := (fun x v => Host.reduce IntOp.andi x v reducesTo_S2720_S_d0 h_S_) main_v21 main_c_7
  let main_v23 : IVec S_ 1 := andi main_v18 main_v22
  let main_v24 : FVec F S2880x3 .f32 := Host.absf main_arg5
  let main_cst_8 : FVec F S_ .f32 := constant S_ .f32 0x7F800000#32
  let main_v25 : FVec F S2880x3 .f32 := broadcastInDim S2880x3 ![] bcast_S_S2880x3 main_cst_8
  let main_v26 : IVec S2880x3 1 := cmpf .olt main_v24 main_v25
  let main_c_9 : IVec S_ 1 := constantI S_ 1 1#1
  let main_v27 : IVec S_ 1 := (fun x v => Host.reduce IntOp.andi x v reducesTo_S2880x3_S_d0_1 h_S_) main_v26 main_c_9
  let main_v28 : IVec S_ 1 := andi main_v23 main_v27
  let main_v29 : FVec F S2880 .f32 := Host.absf main_arg6
  let main_cst_10 : FVec F S_ .f32 := constant S_ .f32 0x7F800000#32
  let main_v30 : FVec F S2880 .f32 := broadcastInDim S2880 ![] bcast_S_S2880 main_cst_10
  let main_v31 : IVec S2880 1 := cmpf .olt main_v29 main_v30
  let main_c_11 : IVec S_ 1 := constantI S_ 1 1#1
  let main_v32 : IVec S_ 1 := (fun x v => Host.reduce IntOp.andi x v reducesTo_S2880_S_d0 h_S_) main_v31 main_c_11
  let main_v33 : IVec S_ 1 := andi main_v28 main_v32
  main_v33

def fn {F : FTy → Type} [FloatOps F] (main_arg0 : FVec F S256x15x64x128x1 .f32) (main_arg1 : FVec F S3584x3 .f32) (main_arg2 : FVec F S3584 .f32) (main_arg3 : FVec F S2720x3 .f32) (main_arg4 : FVec F S2720 .f32) (main_arg5 : FVec F S2880x3 .f32) (main_arg6 : FVec F S2880 .f32) : IVec S_ 1 :=
  let main_v0 : FVec F S256x15x64x128x1 .f32 := Host.absf main_arg0
  let main_cst : FVec F S_ .f32 := constant S_ .f32 0x7F800000#32
  let main_v1 : FVec F S256x15x64x128x1 .f32 := broadcastInDim S256x15x64x128x1 ![] bcast_S_S256x15x64x128x1 main_cst
  let main_v2 : IVec S256x15x64x128x1 1 := cmpf .olt main_v0 main_v1
  let main_c : IVec S_ 1 := constantI S_ 1 1#1
  let main_v3 : IVec S_ 1 := (fun x v => Host.reduce IntOp.andi x v reducesTo_S256x15x64x128x1_S_d0_1_2_3_4 h_S_) main_v2 main_c
  let main_v4 : FVec F S3584x3 .f32 := Host.absf main_arg1
  let main_cst_0 : FVec F S_ .f32 := constant S_ .f32 0x7F800000#32
  let main_v5 : FVec F S3584x3 .f32 := broadcastInDim S3584x3 ![] bcast_S_S3584x3 main_cst_0
  let main_v6 : IVec S3584x3 1 := cmpf .olt main_v4 main_v5
  let main_c_1 : IVec S_ 1 := constantI S_ 1 1#1
  let main_v7 : IVec S_ 1 := (fun x v => Host.reduce IntOp.andi x v reducesTo_S3584x3_S_d0_1 h_S_) main_v6 main_c_1
  let main_v8 : IVec S_ 1 := andi main_v3 main_v7
  let main_v9 : FVec F S3584 .f32 := Host.absf main_arg2
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  let main_v14 : FVec F S2720x3 .f32 := Host.absf main_arg3
  let main_cst_4 : FVec F S_ .f32 := constant S_ .f32 0x7F800000#32
  let main_v15 : FVec F S2720x3 .f32 := broadcastInDim S2720x3 ![] bcast_S_S2720x3 main_cst_4
  let main_v16 : IVec S2720x3 1 := cmpf .olt main_v14 main_v15
  fn_part1 (F := F) main_arg4 main_arg5 main_arg6 main_v13 main_v16
-- ==== Kernel.lean ====
abbrev S256x15x64x128x1 : Shape := ⟨5, ![256, 15, 64, 128, 1]⟩
abbrev S3584x3 : Shape := ⟨2, ![3584, 3]⟩
abbrev S3584 : Shape := ⟨1, ![3584]⟩
abbrev S2720x3 : Shape := ⟨2, ![2720, 3]⟩
abbrev S2720 : Shape := ⟨1, ![2720]⟩
abbrev S2880x3 : Shape := ⟨2, ![2880, 3]⟩
abbrev S2880 : Shape := ⟨1, ![2880]⟩
abbrev S256x5x3x16x4x32x4x1 : Shape := ⟨8, ![256, 5, 3, 16, 4, 32, 4, 1]⟩
abbrev S_ : Shape := ⟨0, ![]⟩
abbrev S256x5x16x32x1 : Shape := ⟨5, ![256, 5, 16, 32, 1]⟩
abbrev S256x7x16x32x1 : Shape := ⟨5, ![256, 7, 16, 32, 1]⟩
abbrev S256x32x16x7x1 : Shape := ⟨5, ![256, 32, 16, 7, 1]⟩
abbrev S256x3584 : Shape := ⟨2, ![256, 3584]⟩
abbrev S256x3586 : Shape := ⟨2, ![256, 3586]⟩
abbrev S3x3584 : Shape := ⟨2, ![3, 3584]⟩
abbrev S1x3584 : Shape := ⟨2, ![1, 3584]⟩
abbrev S4x3584 : Shape := ⟨2, ![4, 3584]⟩
abbrev S32x3586 : Shape := ⟨2, ![32, 3586]⟩
abbrev S32x3584 : Shape := ⟨2, ![32, 3584]⟩
abbrev S256x5x16x34x1 : Shape := ⟨5, ![256, 5, 16, 34, 1]⟩
abbrev S256x2720 : Shape := ⟨2, ![256, 2720]⟩
abbrev S256x2722 : Shape := ⟨2, ![256, 2722]⟩
abbrev S256x2818 : Shape := ⟨2, ![256, 2818]⟩
abbrev S2816x3 : Shape := ⟨2, ![2816, 3]⟩
abbrev S2816 : Shape := ⟨1, ![2816]⟩
abbrev S3x2816 : Shape := ⟨2, ![3, 2816]⟩
abbrev S1x2816 : Shape := ⟨2, ![1, 2816]⟩
abbrev S4x2816 : Shape := ⟨2, ![4, 2816]⟩
abbrev S256x2816 : Shape := ⟨2, ![256, 2816]⟩
abbrev S32x2818 : Shape := ⟨2, ![32, 2818]⟩
abbrev S32x2816 : Shape := ⟨2, ![32, 2816]⟩
abbrev S256x5x18x32x1 : Shape := ⟨5, ![256, 5, 18, 32, 1]⟩
abbrev S256x5x32x18x1 : Shape := ⟨5, ![256, 5, 32, 18, 1]⟩
abbrev S256x2880 : Shape := ⟨2, ![256, 2880]⟩
abbrev S256x2882 : Shape := ⟨2, ![256, 2882]⟩
abbrev S256x2946 : Shape := ⟨2, ![256, 2946]⟩
abbrev S2944x3 : Shape := ⟨2, ![2944, 3]⟩
abbrev S2944 : Shape := ⟨1, ![2944]⟩
abbrev S3x2944 : Shape := ⟨2, ![3, 2944]⟩
abbrev S1x2944 : Shape := ⟨2, ![1, 2944]⟩
abbrev S4x2944 : Shape := ⟨2, ![4, 2944]⟩
abbrev S256x2944 : Shape := ⟨2, ![256, 2944]⟩
abbrev S32x2946 : Shape := ⟨2, ![32, 2946]⟩
abbrev S32x2944 : Shape := ⟨2, ![32, 2944]⟩
abbrev S256x5x1x16x1x32x1x1 : Shape := ⟨8, ![256, 5, 1, 16, 1, 32, 1, 1]⟩

abbrev nBuf : Space → Nat
  | .hbm => 79
  | .vmem => 15
  | .smem => 0
  | _ => 0

abbrev bufTy : (tb : Table) → Fin (tcTables nBuf tb) → BufTy
  | .hbm, ⟨0, _⟩ => ⟨S256x15x64x128x1, .f32⟩
  | .hbm, ⟨1, _⟩ => ⟨S3584x3, .f32⟩
  | .hbm, ⟨2, _⟩ => ⟨S3584, .f32⟩
  | .hbm, ⟨3, _⟩ => ⟨S2720x3, .f32⟩
  | .hbm, ⟨4, _⟩ => ⟨S2720, .f32⟩
  | .hbm, ⟨5, _⟩ => ⟨S2880x3, .f32⟩
  | .hbm, ⟨6, _⟩ => ⟨S2880, .f32⟩
  | .hbm, ⟨7, _⟩ => ⟨S256x5x3x16x4x32x4x1, .f32⟩
  | .hbm, ⟨8, _⟩ => ⟨S_, .f32⟩
  | .hbm, ⟨9, _⟩ => ⟨S256x5x16x32x1, .f32⟩
  | .hbm, ⟨10, _⟩ => ⟨S_, .f32⟩
  | .hbm, ⟨11, _⟩ => ⟨S256x5x16x32x1, .f32⟩
  | .hbm, ⟨12, _⟩ => ⟨S256x5x16x32x1, .f32⟩
  | .hbm, ⟨13, _⟩ => ⟨S_, .i32⟩
  | .hbm, ⟨14, _⟩ => ⟨S_, .f32⟩
  | .hbm, ⟨15, _⟩ => ⟨S256x7x16x32x1, .f32⟩
  | .hbm, ⟨16, _⟩ => ⟨S256x32x16x7x1, .f32⟩
  | .hbm, ⟨17, _⟩ => ⟨S256x3584, .f32⟩
  | .hbm, ⟨18, _⟩ => ⟨S_, .i32⟩
  | .hbm, ⟨19, _⟩ => ⟨S_, .f32⟩
  | .hbm, ⟨20, _⟩ => ⟨S256x3586, .f32⟩
  | .hbm, ⟨21, _⟩ => ⟨S3x3584, .f32⟩
  | .hbm, ⟨22, _⟩ => ⟨S1x3584, .f32⟩
  | .hbm, ⟨23, _⟩ => ⟨S4x3584, .f32⟩
  | .hbm, ⟨24, _⟩ => ⟨S256x3584, .f32⟩
  | .hbm, ⟨25, _⟩ => ⟨S256x32x16x7x1, .f32⟩
  | .hbm, ⟨26, _⟩ => ⟨S256x7x16x32x1, .f32⟩
  | .hbm, ⟨27, _⟩ => ⟨S256x5x16x32x1, .f32⟩
  | .hbm, ⟨28, _⟩ => ⟨S_, .i32⟩
  | .hbm, ⟨29, _⟩ => ⟨S_, .f32⟩
  | .hbm, ⟨30, _⟩ => ⟨S256x5x16x34x1, .f32⟩
  | .hbm, ⟨31, _⟩ => ⟨S256x2720, .f32⟩
  | .hbm, ⟨32, _⟩ => ⟨S_, .i32⟩
  | .hbm, ⟨33, _⟩ => ⟨S_, .f32⟩
  | .hbm, ⟨34, _⟩ => ⟨S256x2722, .f32⟩
  | .hbm, ⟨35, _⟩ => ⟨S_, .i32⟩
  | .hbm, ⟨36, _⟩ => ⟨S_, .f32⟩
  | .hbm, ⟨37, _⟩ => ⟨S256x2818, .f32⟩
  | .hbm, ⟨38, _⟩ => ⟨S_, .i32⟩
  | .hbm, ⟨39, _⟩ => ⟨S_, .f32⟩
  | .hbm, ⟨40, _⟩ => ⟨S2816x3, .f32⟩
  | .hbm, ⟨41, _⟩ => ⟨S_, .i32⟩
  | .hbm, ⟨42, _⟩ => ⟨S_, .f32⟩
  | .hbm, ⟨43, _⟩ => ⟨S2816, .f32⟩
  | .hbm, ⟨44, _⟩ => ⟨S3x2816, .f32⟩
  | .hbm, ⟨45, _⟩ => ⟨S1x2816, .f32⟩
  | .hbm, ⟨46, _⟩ => ⟨S4x2816, .f32⟩
  | .hbm, ⟨47, _⟩ => ⟨S256x2816, .f32⟩
  | .hbm, ⟨48, _⟩ => ⟨S256x2720, .f32⟩
  | .hbm, ⟨49, _⟩ => ⟨S256x5x16x34x1, .f32⟩
  | .hbm, ⟨50, _⟩ => ⟨S256x5x16x32x1, .f32⟩
  | .hbm, ⟨51, _⟩ => ⟨S_, .i32⟩
  | .hbm, ⟨52, _⟩ => ⟨S_, .f32⟩
  | .hbm, ⟨53, _⟩ => ⟨S256x5x18x32x1, .f32⟩
  | .hbm, ⟨54, _⟩ => ⟨S256x5x32x18x1, .f32⟩
  | .hbm, ⟨55, _⟩ => ⟨S256x2880, .f32⟩
  | .hbm, ⟨56, _⟩ => ⟨S_, .i32⟩
  | .hbm, ⟨57, _⟩ => ⟨S_, .f32⟩
  | .hbm, ⟨58, _⟩ => ⟨S256x2882, .f32⟩
  | .hbm, ⟨59, _⟩ => ⟨S_, .i32⟩
  | .hbm, ⟨60, _⟩ => ⟨S_, .f32⟩
  | .hbm, ⟨61, _⟩ => ⟨S256x2946, .f32⟩
  | .hbm, ⟨62, _⟩ => ⟨S_, .i32⟩
  | .hbm, ⟨63, _⟩ => ⟨S_, .f32⟩
  | .hbm, ⟨64, _⟩ => ⟨S2944x3, .f32⟩
  | .hbm, ⟨65, _⟩ => ⟨S_, .i32⟩
  | .hbm, ⟨66, _⟩ => ⟨S_, .f32⟩
  | .hbm, ⟨67, _⟩ => ⟨S2944, .f32⟩
  | .hbm, ⟨68, _⟩ => ⟨S3x2944, .f32⟩
  | .hbm, ⟨69, _⟩ => ⟨S1x2944, .f32⟩
  | .hbm, ⟨70, _⟩ => ⟨S4x2944, .f32⟩
  | .hbm, ⟨71, _⟩ => ⟨S256x2944, .f32⟩
  | .hbm, ⟨72, _⟩ => ⟨S256x2880, .f32⟩
  | .hbm, ⟨73, _⟩ => ⟨S256x5x32x18x1, .f32⟩
  | .hbm, ⟨74, _⟩ => ⟨S256x5x18x32x1, .f32⟩
  | .hbm, ⟨75, _⟩ => ⟨S256x5x16x32x1, .f32⟩
  | .hbm, ⟨76, _⟩ => ⟨S256x5x1x16x1x32x1x1, .f32⟩
  | .hbm, ⟨77, _⟩ => ⟨S256x5x3x16x4x32x4x1, .f32⟩
  | .hbm, ⟨78, _⟩ => ⟨S256x15x64x128x1, .f32⟩
  | .local _ .vmem, ⟨0, _⟩ => ⟨S32x3586, .f32⟩
  | .local _ .vmem, ⟨1, _⟩ => ⟨S32x3586, .f32⟩
  | .local _ .vmem, ⟨2, _⟩ => ⟨S4x3584, .f32⟩
  | .local _ .vmem, ⟨3, _⟩ => ⟨S32x3584, .f32⟩
  | .local _ .vmem, ⟨4, _⟩ => ⟨S32x3584, .f32⟩
  | .local _ .vmem, ⟨5, _⟩ => ⟨S32x2818, .f32⟩
  | .local _ .vmem, ⟨6, _⟩ => ⟨S32x2818, .f32⟩
  | .local _ .vmem, ⟨7, _⟩ => ⟨S4x2816, .f32⟩
  | .local _ .vmem, ⟨8, _⟩ => ⟨S32x2816, .f32⟩
  | .local _ .vmem, ⟨9, _⟩ => ⟨S32x2816, .f32⟩
  | .local _ .vmem, ⟨10, _⟩ => ⟨S32x2946, .f32⟩
  | .local _ .vmem, ⟨11, _⟩ => ⟨S32x2946, .f32⟩
  | .local _ .vmem, ⟨12, _⟩ => ⟨S4x2944, .f32⟩
  | .local _ .vmem, ⟨13, _⟩ => ⟨S32x2944, .f32⟩
  | .local _ .vmem, ⟨14, _⟩ => ⟨S32x2944, .f32⟩
  | _, _ => ⟨S256x15x64x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_call3_v0 : Ref sig .tc := ⟨.hbm, 33, rfl⟩
abbrev main_v17 : Ref sig .tc := ⟨.hbm, 34, rfl⟩
abbrev main_c_4 : Ref sig .tc := ⟨.hbm, 35, rfl⟩
abbrev main_call4_v0 : Ref sig .tc := ⟨.hbm, 36, rfl⟩
abbrev main_v18 : Ref sig .tc := ⟨.hbm, 37, rfl⟩
abbrev main_c_5 : Ref sig .tc := ⟨.hbm, 38, rfl⟩
abbrev main_call5_v0 : Ref sig .tc := ⟨.hbm, 39, rfl⟩
abbrev main_v19 : Ref sig .tc := ⟨.hbm, 40, rfl⟩
abbrev main_c_6 : Ref sig .tc := ⟨.hbm, 41, rfl⟩
abbrev main_call6_v0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_call7_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_8 : Ref sig .tc := ⟨.hbm, 56, rfl⟩
abbrev main_call8_v0 : Ref sig .tc := ⟨.hbm, 57, rfl⟩
abbrev main_v31 : Ref sig .tc := ⟨.hbm, 58, rfl⟩
abbrev main_c_9 : Ref sig .tc := ⟨.hbm, 59, rfl⟩
abbrev main_call9_v0 : Ref sig .tc := ⟨.hbm, 60, rfl⟩
abbrev main_v32 : Ref sig .tc := ⟨.hbm, 61, rfl⟩
abbrev main_c_10 : Ref sig .tc := ⟨.hbm, 62, rfl⟩
abbrev main_call10_v0 : Ref sig .tc := ⟨.hbm, 63, rfl⟩
abbrev main_v33 : Ref sig .tc := ⟨.hbm, 64, rfl⟩
abbrev main_c_11 : Ref sig .tc := ⟨.hbm, 65, rfl⟩
abbrev main_call11_v0 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3586 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x2818 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2816 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x2816 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x2946 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2944 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x2944 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256x15x64x128x1_S256x5x3x16x4x32x4x1 : S256x15x64x128x1.ShapeCasts S256x5x3x16x4x32x4x1
  reducesTo_S256x5x3x16x4x32x4x1_S256x5x16x32x1_d2_4_6 : S256x5x3x16x4x32x4x1.ReducesTo [2, 4, 6] S256x5x16x32x1
  h_S_ : 0 < S_.numel
  bcast_S_S256x5x16x32x1 : S_.BroadcastsInDim S256x5x16x32x1 (![] : Fin 0 → Fin S256x5x16x32x1.rank)
  pads_S256x5x16x32x1_S256x7x16x32x1_000_110_000_000_000 : S256x5x16x32x1.Pads (![0, 1, 0, 0, 0] : Fin 5 → Nat) ![0, 1, 0, 0, 0] ![0, 0, 0, 0, 0] S256x7x16x32x1
  transposes_S256x7x16x32x1_S256x32x16x7x1_0_3_2_1_4 : S256x7x16x32x1.Transposes [0, 3, 2, 1, 4] S256x32x16x7x1
  shapeCasts_S256x32x16x7x1_S256x3584 : S256x32x16x7x1.ShapeCasts S256x3584
  pads_S256x3584_S256x3586_000_110 : S256x3584.Pads (![0, 1] : Fin 2 → Nat) ![0, 1] ![0, 0] S256x3586
  transposes_S3584x3_S3x3584_1_0 : S3584x3.Transposes [1, 0] S3x3584
  shapeCasts_S3584_S1x3584 : S3584.ShapeCasts S1x3584
  concatenates_S3x3584_S1x3584_S4x3584_d0 : Shape.Concatenates [S3x3584, S1x3584] S4x3584 0
  inb_S32x3586_S32x3586_0_0 : ∀ a, (![0, 0] : Fin 2 → Nat) a + S32x3586.size a ≤ S32x3586.size a
  h_S32x3586 : 0 < S32x3586.numel
  shapeCasts_S32x3586_S32x3586 : S32x3586.ShapeCasts S32x3586
  inb_S4x3584_S1x3584_0_0 : ∀ a, (![0, 0] : Fin 2 → Nat) a + S1x3584.size a ≤ S4x3584.size a
  h_S1x3584 : 0 < S1x3584.numel
  shapeCasts_S1x3584_S1x3584 : S1x3584.ShapeCasts S1x3584
  inb_S4x3584_S1x3584_1_0 : ∀ a, (![1, 0] : Fin 2 → Nat) a + S1x3584.size a ≤ S4x3584.size a
  inb_S4x3584_S1x3584_2_0 : ∀ a, (![2, 0] : Fin 2 → Nat) a + S1x3584.size a ≤ S4x3584.size a
  inb_S4x3584_S1x3584_3_0 : ∀ a, (![3, 0] : Fin 2 → Nat) a + S1x3584.size a ≤ S4x3584.size a
  slices_S32x3586_o0_0_S32x3584 : S32x3586.Slices ![0, 0] S32x3584
  broadcasts_S1x3584_S32x3584 : S1x3584.Broadcasts S32x3584
  slices_S32x3586_o0_1_S32x3584 : S32x3586.Slices ![0, 1] S32x3584
  slices_S32x3586_o0_2_S32x3584 : S32x3586.Slices ![0, 2] S32x3584
  inb_S32x3584_S32x3584_0_0 : ∀ a, (![0, 0] : Fin 2 → Nat) a + S32x3584.size a ≤ S32x3584.size a
  h_S32x3584 : 0 < S32x3584.numel
  shapeCasts_S256x3584_S256x32x16x7x1 : S256x3584.ShapeCasts S256x32x16x7x1
  transposes_S256x32x16x7x1_S256x7x16x32x1_0_3_2_1_4 : S256x32x16x7x1.Transposes [0, 3, 2, 1, 4] S256x7x16x32x1
  slices_S256x7x16x32x1_S256x5x16x32x1_0_1_0_0_0 : S256x7x16x32x1.Slices ![0, 1, 0, 0, 0] S256x5x16x32x1
  pads_S256x5x16x32x1_S256x5x16x34x1_000_000_000_110_000 : S256x5x16x32x1.Pads (![0, 0, 0, 1, 0] : Fin 5 → Nat) ![0, 0, 0, 1, 0] ![0, 0, 0, 0, 0] S256x5x16x34x1
  shapeCasts_S256x5x16x34x1_S256x2720 : S256x5x16x34x1.ShapeCasts S256x2720
  pads_S256x2720_S256x2722_000_110 : S256x2720.Pads (![0, 1] : Fin 2 → Nat) ![0, 1] ![0, 0] S256x2722
  pads_S256x2722_S256x2818_000_0960 : S256x2722.Pads (![0, 0] : Fin 2 → Nat) ![0, 96] ![0, 0] S256x2818
  pads_S2720x3_S2816x3_0960_000 : S2720x3.Pads (![0, 0] : Fin 2 → Nat) ![96, 0] ![0, 0] S2816x3
  pads_S2720_S2816_0960 : S2720.Pads (![0] : Fin 1 → Nat) ![96] ![0] S2816
  transposes_S2816x3_S3x2816_1_0 : S2816x3.Transposes [1, 0] S3x2816
  shapeCasts_S2816_S1x2816 : S2816.ShapeCasts S1x2816
  concatenates_S3x2816_S1x2816_S4x2816_d0 : Shape.Concatenates [S3x2816, S1x2816] S4x2816 0
  inb_S32x2818_S32x2818_0_0 : ∀ a, (![0, 0] : Fin 2 → Nat) a + S32x2818.size a ≤ S32x2818.size a
  h_S32x2818 : 0 < S32x2818.numel
  shapeCasts_S32x2818_S32x2818 : S32x2818.ShapeCasts S32x2818
  inb_S4x2816_S1x2816_0_0 : ∀ a, (![0, 0] : Fin 2 → Nat) a + S1x2816.size a ≤ S4x2816.size a
  h_S1x2816 : 0 < S1x2816.numel
  shapeCasts_S1x2816_S1x2816 : S1x2816.ShapeCasts S1x2816
  inb_S4x2816_S1x2816_1_0 : ∀ a, (![1, 0] : Fin 2 → Nat) a + S1x2816.size a ≤ S4x2816.size a
  inb_S4x2816_S1x2816_2_0 : ∀ a, (![2, 0] : Fin 2 → Nat) a + S1x2816.size a ≤ S4x2816.size a
  inb_S4x2816_S1x2816_3_0 : ∀ a, (![3, 0] : Fin 2 → Nat) a + S1x2816.size a ≤ S4x2816.size a
  slices_S32x2818_o0_0_S32x2816 : S32x2818.Slices ![0, 0] S32x2816
  broadcasts_S1x2816_S32x2816 : S1x2816.Broadcasts S32x2816
  slices_S32x2818_o0_1_S32x2816 : S32x2818.Slices ![0, 1] S32x2816
  slices_S32x2818_o0_2_S32x2816 : S32x2818.Slices ![0, 2] S32x2816
  inb_S32x2816_S32x2816_0_0 : ∀ a, (![0, 0] : Fin 2 → Nat) a + S32x2816.size a ≤ S32x2816.size a
  h_S32x2816 : 0 < S32x2816.numel
  slices_S256x2816_S256x2720_0_0 : S256x2816.Slices ![0, 0] S256x2720
  shapeCasts_S256x2720_S256x5x16x34x1 : S256x2720.ShapeCasts S256x5x16x34x1
  slices_S256x5x16x34x1_S256x5x16x32x1_0_0_0_1_0 : S256x5x16x34x1.Slices ![0, 0, 0, 1, 0] S256x5x16x32x1
  pads_S256x5x16x32x1_S256x5x18x32x1_000_000_110_000_000 : S256x5x16x32x1.Pads (![0, 0, 1, 0, 0] : Fin 5 → Nat) ![0, 0, 1, 0, 0] ![0, 0, 0, 0, 0] S256x5x18x32x1
  transposes_S256x5x18x32x1_S256x5x32x18x1_0_1_3_2_4 : S256x5x18x32x1.Transposes [0, 1, 3, 2, 4] S256x5x32x18x1
  shapeCasts_S256x5x32x18x1_S256x2880 : S256x5x32x18x1.ShapeCasts S256x2880
  pads_S256x2880_S256x2882_000_110 : S256x2880.Pads (![0, 1] : Fin 2 → Nat) ![0, 1] ![0, 0] S256x2882
  pads_S256x2882_S256x2946_000_0640 : S256x2882.Pads (![0, 0] : Fin 2 → Nat) ![0, 64] ![0, 0] S256x2946
  pads_S2880x3_S2944x3_0640_000 : S2880x3.Pads (![0, 0] : Fin 2 → Nat) ![64, 0] ![0, 0] S2944x3
  pads_S2880_S2944_0640 : S2880.Pads (![0] : Fin 1 → Nat) ![64] ![0] S2944
  transposes_S2944x3_S3x2944_1_0 : S2944x3.Transposes [1, 0] S3x2944
  shapeCasts_S2944_S1x2944 : S2944.ShapeCasts S1x2944
  concatenates_S3x2944_S1x2944_S4x2944_d0 : Shape.Concatenates [S3x2944, S1x2944] S4x2944 0
  inb_S32x2946_S32x2946_0_0 : ∀ a, (![0, 0] : Fin 2 → Nat) a + S32x2946.size a ≤ S32x2946.size a
  h_S32x2946 : 0 < S32x2946.numel
  shapeCasts_S32x2946_S32x2946 : S32x2946.ShapeCasts S32x2946
  inb_S4x2944_S1x2944_0_0 : ∀ a, (![0, 0] : Fin 2 → Nat) a + S1x2944.size a ≤ S4x2944.size a
  h_S1x2944 : 0 < S1x2944.numel
  shapeCasts_S1x2944_S1x2944 : S1x2944.ShapeCasts S1x2944
  inb_S4x2944_S1x2944_1_0 : ∀ a, (![1, 0] : Fin 2 → Nat) a + S1x2944.size a ≤ S4x2944.size a
  inb_S4x2944_S1x2944_2_0 : ∀ a, (![2, 0] : Fin 2 → Nat) a + S1x2944.size a ≤ S4x2944.size a
  inb_S4x2944_S1x2944_3_0 : ∀ a, (![3, 0] : Fin 2 → Nat) a + S1x2944.size a ≤ S4x2944.size a
  slices_S32x2946_o0_0_S32x2944 : S32x2946.Slices ![0, 0] S32x2944
  broadcasts_S1x2944_S32x2944 : S1x2944.Broadcasts S32x2944
  slices_S32x2946_o0_1_S32x2944 : S32x2946.Slices ![0, 1] S32x2944
  slices_S32x2946_o0_2_S32x2944 : S32x2946.Slices ![0, 2] S32x2944
  inb_S32x2944_S32x2944_0_0 : ∀ a, (![0, 0] : Fin 2 → Nat) a + S32x2944.size a ≤ S32x2944.size a
  h_S32x2944 : 0 < S32x2944.numel
  slices_S256x2944_S256x2880_0_0 : S256x2944.Slices ![0, 0] S256x2880
  shapeCasts_S256x2880_S256x5x32x18x1 : S256x2880.ShapeCasts S256x5x32x18x1
  transposes_S256x5x32x18x1_S256x5x18x32x1_0_1_3_2_4 : S256x5x32x18x1.Transposes [0, 1, 3, 2, 4] S256x5x18x32x1
  slices_S256x5x18x32x1_S256x5x16x32x1_0_0_1_0_0 : S256x5x18x32x1.Slices ![0, 0, 1, 0, 0] S256x5x16x32x1
  bcast_S256x5x16x32x1_S256x5x1x16x1x32x1x1_0_1_3_5_7 : S256x5x16x32x1.BroadcastsInDim S256x5x1x16x1x32x1x1 (![0, 1, 3, 5, 7] : Fin 5 → Fin S256x5x1x16x1x32x1x1.rank)
  bcast_S256x5x1x16x1x32x1x1_S256x5x3x16x4x32x4x1_0_1_2_3_4_5_6_7 : S256x5x1x16x1x32x1x1.BroadcastsInDim S256x5x3x16x4x32x4x1 (![0, 1, 2, 3, 4, 5, 6, 7] : Fin 8 → Fin S256x5x3x16x4x32x4x1.rank)
  shapeCasts_S256x5x3x16x4x32x4x1_S256x15x64x128x1 : S256x5x3x16x4x32x4x1.ShapeCasts S256x15x64x128x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3586.size a ≤ S256x3586.size a
  hwx0_0 : ∀ i : grid0.Coords, EltTy.bits .f32 = 32 ∨ (Rect.block (s := S256x3586) S32x3586.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3584.size a ≤ S4x3584.size a
  hwx0_1 : ∀ i : grid0.Coords, EltTy.bits .f32 = 32 ∨ (Rect.block (s := S4x3584) S4x3584.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x3584.size a ≤ S256x3584.size a
  hwx0_2 : ∀ i : grid0.Coords, EltTy.bits .f32 = 32 ∨ (Rect.block (s := S256x3584) S32x3584.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2818.size a ≤ S256x2818.size a
  hwx1_0 : ∀ i : grid1.Coords, EltTy.bits .f32 = 32 ∨ (Rect.block (s := S256x2818) S32x2818.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x2816.size a ≤ S4x2816.size a
  hwx1_1 : ∀ i : grid1.Coords, EltTy.bits .f32 = 32 ∨ (Rect.block (s := S4x2816) S4x2816.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x2816.size a ≤ S256x2816.size a
  hwx1_2 : ∀ i : grid1.Coords, EltTy.bits .f32 = 32 ∨ (Rect.block (s := S256x2816) S32x2816.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x2946.size a ≤ S256x2946.size a
  hwx2_0 : ∀ i : grid2.Coords, EltTy.bits .f32 = 32 ∨ (Rect.block (s := S256x2946) S32x2946.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2944.size a ≤ S4x2944.size a
  hwx2_1 : ∀ i : grid2.Coords, EltTy.bits .f32 = 32 ∨ (Rect.block (s := S4x2944) S4x2944.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x2944.size a ≤ S256x2944.size a
  hwx2_2 : ∀ i : grid2.Coords, EltTy.bits .f32 = 32 ∨ (Rect.block (s := S256x2944) S32x2944.size (cc2_transform_2 i) (hinb2_2 i)).WholeWords (EltTy.packing .f32)

variable [Facts₀]

abbrev win0_0 : Pipeline.Window sig grid0 :=
  Pipeline.Window.ofSpec (Memref.whole main_v7) S32x3586.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x3584.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x3584.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S32x2818.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4x2816.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S32x2816.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v32) S32x2946.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S4x2944.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S32x2944.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S256x15x64x128x1 : Shape := ⟨5, ![256, 15, 64, 128, 1]⟩
abbrev S3584x3 : Shape := ⟨2, ![3584, 3]⟩
abbrev S3584 : Shape := ⟨1, ![3584]⟩
abbrev S2720x3 : Shape := ⟨2, ![2720, 3]⟩
abbrev S2720 : Shape := ⟨1, ![2720]⟩
abbrev S2880x3 : Shape := ⟨2, ![2880, 3]⟩
abbrev S2880 : Shape := ⟨1, ![2880]⟩
abbrev S256x5x3x16x4x32x4x1 : Shape := ⟨8, ![256, 5, 3, 16, 4, 32, 4, 1]⟩
abbrev S_ : Shape := ⟨0, ![]⟩
abbrev S256x5x16x32x1 : Shape := ⟨5, ![256, 5, 16, 32, 1]⟩
abbrev S256x7x16x32x1 : Shape := ⟨5, ![256, 7, 16, 32, 1]⟩
abbrev S256x32x16x7x1 : Shape := ⟨5, ![256, 32, 16, 7, 1]⟩
abbrev S256x3584 : Shape := ⟨2, ![256, 3584]⟩
abbrev S256x3586 : Shape := ⟨2, ![256, 3586]⟩
abbrev S3584x1 : Shape := ⟨2, ![3584, 1]⟩
abbrev S1x3584 : Shape := ⟨2, ![1, 3584]⟩
abbrev S256x5x16x34x1 : Shape := ⟨5, ![256, 5, 16, 34, 1]⟩
abbrev S256x2720 : Shape := ⟨2, ![256, 2720]⟩
abbrev S256x2722 : Shape := ⟨2, ![256, 2722]⟩
abbrev S2720x1 : Shape := ⟨2, ![2720, 1]⟩
abbrev S1x2720 : Shape := ⟨2, ![1, 2720]⟩
abbrev S256x5x18x32x1 : Shape := ⟨5, ![256, 5, 18, 32, 1]⟩
abbrev S256x5x32x18x1 : Shape := ⟨5, ![256, 5, 32, 18, 1]⟩
abbrev S256x2880 : Shape := ⟨2, ![256, 2880]⟩
abbrev S256x2882 : Shape := ⟨2, ![256, 2882]⟩
abbrev S2880x1 : Shape := ⟨2, ![2880, 1]⟩
abbrev S1x2880 : Shape := ⟨2, ![1, 2880]⟩
abbrev S256x5x1x16x1x32x1x1 : Shape := ⟨8, ![256, 5, 1, 16, 1, 32, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S256x15x64x128x1, .f32⟩
  | .hbm, ⟨1, _⟩ => ⟨S3584x3, .f32⟩
  | .hbm, ⟨2, _⟩ => ⟨S3584, .f32⟩
  | .hbm, ⟨3, _⟩ => ⟨S2720x3, .f32⟩
  | .hbm, ⟨4, _⟩ => ⟨S2720, .f32⟩
  | .hbm, ⟨5, _⟩ => ⟨S2880x3, .f32⟩
  | .hbm, ⟨6, _⟩ => ⟨S2880, .f32⟩
  | .hbm, ⟨7, _⟩ => ⟨S256x5x3x16x4x32x4x1, .f32⟩
  | .hbm, ⟨8, _⟩ => ⟨S_, .f32⟩
  | .hbm, ⟨9, _⟩ => ⟨S256x5x16x32x1, .f32⟩
  | .hbm, ⟨10, _⟩ => ⟨S_, .f32⟩
  | .hbm, ⟨11, _⟩ => ⟨S256x5x16x32x1, .f32⟩
  | .hbm, ⟨12, _⟩ => ⟨S256x5x16x32x1, .f32⟩
  | .hbm, ⟨13, _⟩ => ⟨S_, .i32⟩
  | .hbm, ⟨14, _⟩ => ⟨S_, .f32⟩
  | .hbm, ⟨15, _⟩ => ⟨S256x7x16x32x1, .f32⟩
  | .hbm, ⟨16, _⟩ => ⟨S256x32x16x7x1, .f32⟩
  | .hbm, ⟨17, _⟩ => ⟨S256x3584, .f32⟩
  | .hbm, ⟨18, _⟩ => ⟨S_, .i32⟩
  | .hbm, ⟨19, _⟩ => ⟨S_, .f32⟩
  | .hbm, ⟨20, _⟩ => ⟨S256x3586, .f32⟩
  | .hbm, ⟨21, _⟩ => ⟨S3584x1, .f32⟩
  | .hbm, ⟨22, _⟩ => ⟨S3584, .f32⟩
  | .hbm, ⟨23, _⟩ => ⟨S256x3584, .f32⟩
  | .hbm, ⟨24, _⟩ => ⟨S1x3584, .f32⟩
  | .hbm, ⟨25, _⟩ => ⟨S256x3584, .f32⟩
  | .hbm, ⟨26, _⟩ => ⟨S256x3584, .f32⟩
  | .hbm, ⟨27, _⟩ => ⟨S3584x1, .f32⟩
  | .hbm, ⟨28, _⟩ => ⟨S3584, .f32⟩
  | .hbm, ⟨29, _⟩ => ⟨S256x3584, .f32⟩
  | .hbm, ⟨30, _⟩ => ⟨S1x3584, .f32⟩
  | .hbm, ⟨31, _⟩ => ⟨S256x3584, .f32⟩
  | .hbm, ⟨32, _⟩ => ⟨S256x3584, .f32⟩
  | .hbm, ⟨33, _⟩ => ⟨S256x3584, .f32⟩
  | .hbm, ⟨34, _⟩ => ⟨S3584x1, .f32⟩
  | .hbm, ⟨35, _⟩ => ⟨S3584, .f32⟩
  | .hbm, ⟨36, _⟩ => ⟨S256x3584, .f32⟩
  | .hbm, ⟨37, _⟩ => ⟨S1x3584, .f32⟩
  | .hbm, ⟨38, _⟩ => ⟨S256x3584, .f32⟩
  | .hbm, ⟨39, _⟩ => ⟨S256x3584, .f32⟩
  | .hbm, ⟨40, _⟩ => ⟨S256x3584, .f32⟩
  | .hbm, ⟨41, _⟩ => ⟨S1x3584, .f32⟩
  | .hbm, ⟨42, _⟩ => ⟨S256x3584, .f32⟩
  | .hbm, ⟨43, _⟩ => ⟨S256x3584, .f32⟩
  | .hbm, ⟨44, _⟩ => ⟨S_, .f32⟩
  | .hbm, ⟨45, _⟩ => ⟨S256x3584, .f32⟩
  | .hbm, ⟨46, _⟩ => ⟨S256x3584, .f32⟩
  | .hbm, ⟨47, _⟩ => ⟨S256x32x16x7x1, .f32⟩
  | .hbm, ⟨48, _⟩ => ⟨S256x7x16x32x1, .f32⟩
  | .hbm, ⟨49, _⟩ => ⟨S256x5x16x32x1, .f32⟩
  | .hbm, ⟨50, _⟩ => ⟨S_, .i32⟩
  | .hbm, ⟨51, _⟩ => ⟨S_, .f32⟩
  | .hbm, ⟨52, _⟩ => ⟨S256x5x16x34x1, .f32⟩
  | .hbm, ⟨53, _⟩ => ⟨S256x2720, .f32⟩
  | .hbm, ⟨54, _⟩ => ⟨S_, .i32⟩
  | .hbm, ⟨55, _⟩ => ⟨S_, .f32⟩
  | .hbm, ⟨56, _⟩ => ⟨S256x2722, .f32⟩
  | .hbm, ⟨57, _⟩ => ⟨S2720x1, .f32⟩
  | .hbm, ⟨58, _⟩ => ⟨S2720, .f32⟩
  | .hbm, ⟨59, _⟩ => ⟨S256x2720, .f32⟩
  | .hbm, ⟨60, _⟩ => ⟨S1x2720, .f32⟩
  | .hbm, ⟨61, _⟩ => ⟨S256x2720, .f32⟩
  | .hbm, ⟨62, _⟩ => ⟨S256x2720, .f32⟩
  | .hbm, ⟨63, _⟩ => ⟨S2720x1, .f32⟩
  | .hbm, ⟨64, _⟩ => ⟨S2720, .f32⟩
  | .hbm, ⟨65, _⟩ => ⟨S256x2720, .f32⟩
  | .hbm, ⟨66, _⟩ => ⟨S1x2720, .f32⟩
  | .hbm, ⟨67, _⟩ => ⟨S256x2720, .f32⟩
  | .hbm, ⟨68, _⟩ => ⟨S256x2720, .f32⟩
  | .hbm, ⟨69, _⟩ => ⟨S256x2720, .f32⟩
  | .hbm, ⟨70, _⟩ => ⟨S2720x1, .f32⟩
  | .hbm, ⟨71, _⟩ => ⟨S2720, .f32⟩
  | .hbm, ⟨72, _⟩ => ⟨S256x2720, .f32⟩
  | .hbm, ⟨73, _⟩ => ⟨S1x2720, .f32⟩
  | .hbm, ⟨74, _⟩ => ⟨S256x2720, .f32⟩
  | .hbm, ⟨75, _⟩ => ⟨S256x2720, .f32⟩
  | .hbm, ⟨76, _⟩ => ⟨S256x2720, .f32⟩
  | .hbm, ⟨77, _⟩ => ⟨S1x2720, .f32⟩
  | .hbm, ⟨78, _⟩ => ⟨S256x2720, .f32⟩
  | .hbm, ⟨79, _⟩ => ⟨S256x2720, .f32⟩
  | .hbm, ⟨80, _⟩ => ⟨S_, .f32⟩
  | .hbm, ⟨81, _⟩ => ⟨S256x2720, .f32⟩
  | .hbm, ⟨82, _⟩ => ⟨S256x2720, .f32⟩
  | .hbm, ⟨83, _⟩ => ⟨S256x5x16x34x1, .f32⟩
  | .hbm, ⟨84, _⟩ => ⟨S256x5x16x32x1, .f32⟩
  | .hbm, ⟨85, _⟩ => ⟨S_, .i32⟩
  | .hbm, ⟨86, _⟩ => ⟨S_, .f32⟩
  | .hbm, ⟨87, _⟩ => ⟨S256x5x18x32x1, .f32⟩
  | .hbm, ⟨88, _⟩ => ⟨S256x5x32x18x1, .f32⟩
  | .hbm, ⟨89, _⟩ => ⟨S256x2880, .f32⟩
  | .hbm, ⟨90, _⟩ => ⟨S_, .i32⟩
  | .hbm, ⟨91, _⟩ => ⟨S_, .f32⟩
  | .hbm, ⟨92, _⟩ => ⟨S256x2882, .f32⟩
  | .hbm, ⟨93, _⟩ => ⟨S2880x1, .f32⟩
  | .hbm, ⟨94, _⟩ => ⟨S2880, .f32⟩
  | .hbm, ⟨95, _⟩ => ⟨S256x2880, .f32⟩
  | .hbm, ⟨96, _⟩ => ⟨S1x2880, .f32⟩
  | .hbm, ⟨97, _⟩ => ⟨S256x2880, .f32⟩
  | .hbm, ⟨98, _⟩ => ⟨S256x2880, .f32⟩
  | .hbm, ⟨99, _⟩ => ⟨S2880x1, .f32⟩
  | .hbm, ⟨100, _⟩ => ⟨S2880, .f32⟩
  | .hbm, ⟨101, _⟩ => ⟨S256x2880, .f32⟩
  | .hbm, ⟨102, _⟩ => ⟨S1x2880, .f32⟩
  | .hbm, ⟨103, _⟩ => ⟨S256x2880, .f32⟩
  | .hbm, ⟨104, _⟩ => ⟨S256x2880, .f32⟩
  | .hbm, ⟨105, _⟩ => ⟨S256x2880, .f32⟩
  | .hbm, ⟨106, _⟩ => ⟨S2880x1, .f32⟩
  | .hbm, ⟨107, _⟩ => ⟨S2880, .f32⟩
  | .hbm, ⟨108, _⟩ => ⟨S256x2880, .f32⟩
  | .hbm, ⟨109, _⟩ => ⟨S1x2880, .f32⟩
  | .hbm, ⟨110, _⟩ => ⟨S256x2880, .f32⟩
  | .hbm, ⟨111, _⟩ => ⟨S256x2880, .f32⟩
  | .hbm, ⟨112, _⟩ => ⟨S256x2880, .f32⟩
  | .hbm, ⟨113, _⟩ => ⟨S1x2880, .f32⟩
  | .hbm, ⟨114, _⟩ => ⟨S256x2880, .f32⟩
  | .hbm, ⟨115, _⟩ => ⟨S256x2880, .f32⟩
  | .hbm, ⟨116, _⟩ => ⟨S_, .f32⟩
  | .hbm, ⟨117, _⟩ => ⟨S256x2880, .f32⟩
  | .hbm, ⟨118, _⟩ => ⟨S256x2880, .f32⟩
  | .hbm, ⟨119, _⟩ => ⟨S256x5x32x18x1, .f32⟩
  | .hbm, ⟨120, _⟩ => ⟨S256x5x18x32x1, .f32⟩
  | .hbm, ⟨121, _⟩ => ⟨S256x5x16x32x1, .f32⟩
  | .hbm, ⟨122, _⟩ => ⟨S256x5x1x16x1x32x1x1, .f32⟩
  | .hbm, ⟨123, _⟩ => ⟨S256x5x3x16x4x32x4x1, .f32⟩
  | .hbm, ⟨124, _⟩ => ⟨S256x15x64x128x1, .f32⟩
  | _, _ => ⟨S256x15x64x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call2_cst : Ref sig .tc := ⟨.hbm, 44, rfl⟩
abbrev main_call2_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_2 : Ref sig .tc := ⟨.hbm, 50, rfl⟩
abbrev main_call3_v0 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_call4_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_call5_cst : Ref sig .tc := ⟨.hbm, 80, rfl⟩
abbrev main_call5_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_4 : Ref sig .tc := ⟨.hbm, 85, rfl⟩
abbrev main_call6_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_5 : Ref sig .tc := ⟨.hbm, 90, rfl⟩
abbrev main_call7_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_call8_cst : Ref sig .tc := ⟨.hbm, 116, rfl⟩
abbrev main_call8_v0 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩

abbrev nD : Nat := 1
abbrev τ : Topo := Topo.v7x

variable {F : FTy → Type} [FloatOps F]

class Facts₀ : Prop where
  shapeCasts_S256x15x64x128x1_S256x5x3x16x4x32x4x1 : S256x15x64x128x1.ShapeCasts S256x5x3x16x4x32x4x1
  reducesTo_S256x5x3x16x4x32x4x1_S256x5x16x32x1_d2_4_6 : S256x5x3x16x4x32x4x1.ReducesTo [2, 4, 6] S256x5x16x32x1
  h_S_ : 0 < S_.numel
  bcast_S_S256x5x16x32x1 : S_.BroadcastsInDim S256x5x16x32x1 (![] : Fin 0 → Fin S256x5x16x32x1.rank)
  pads_S256x5x16x32x1_S256x7x16x32x1_000_110_000_000_000 : S256x5x16x32x1.Pads (![0, 1, 0, 0, 0] : Fin 5 → Nat) ![0, 1, 0, 0, 0] ![0, 0, 0, 0, 0] S256x7x16x32x1
  transposes_S256x7x16x32x1_S256x32x16x7x1_0_3_2_1_4 : S256x7x16x32x1.Transposes [0, 3, 2, 1, 4] S256x32x16x7x1
  shapeCasts_S256x32x16x7x1_S256x3584 : S256x32x16x7x1.ShapeCasts S256x3584
  pads_S256x3584_S256x3586_000_110 : S256x3584.Pads (![0, 1] : Fin 2 → Nat) ![0, 1] ![0, 0] S256x3586
  slices_S3584x3_S3584x1_0_0 : S3584x3.Slices ![0, 0] S3584x1
  shapeCasts_S3584x1_S3584 : S3584x1.ShapeCasts S3584
  slices_S256x3586_S256x3584_0_0 : S256x3586.Slices ![0, 0] S256x3584
  bcast_S3584_S1x3584_1 : S3584.BroadcastsInDim S1x3584 (![1] : Fin 1 → Fin S1x3584.rank)
  bcast_S1x3584_S256x3584_0_1 : S1x3584.BroadcastsInDim S256x3584 (![0, 1] : Fin 2 → Fin S256x3584.rank)
  slices_S3584x3_S3584x1_0_1 : S3584x3.Slices ![0, 1] S3584x1
  slices_S256x3586_S256x3584_0_1 : S256x3586.Slices ![0, 1] S256x3584
  slices_S3584x3_S3584x1_0_2 : S3584x3.Slices ![0, 2] S3584x1
  slices_S256x3586_S256x3584_0_2 : S256x3586.Slices ![0, 2] S256x3584
  bcast_S_S256x3584 : S_.BroadcastsInDim S256x3584 (![] : Fin 0 → Fin S256x3584.rank)
  shapeCasts_S256x3584_S256x32x16x7x1 : S256x3584.ShapeCasts S256x32x16x7x1
  transposes_S256x32x16x7x1_S256x7x16x32x1_0_3_2_1_4 : S256x32x16x7x1.Transposes [0, 3, 2, 1, 4] S256x7x16x32x1
  slices_S256x7x16x32x1_S256x5x16x32x1_0_1_0_0_0 : S256x7x16x32x1.Slices ![0, 1, 0, 0, 0] S256x5x16x32x1
  pads_S256x5x16x32x1_S256x5x16x34x1_000_000_000_110_000 : S256x5x16x32x1.Pads (![0, 0, 0, 1, 0] : Fin 5 → Nat) ![0, 0, 0, 1, 0] ![0, 0, 0, 0, 0] S256x5x16x34x1
  shapeCasts_S256x5x16x34x1_S256x2720 : S256x5x16x34x1.ShapeCasts S256x2720
  pads_S256x2720_S256x2722_000_110 : S256x2720.Pads (![0, 1] : Fin 2 → Nat) ![0, 1] ![0, 0] S256x2722
  slices_S2720x3_S2720x1_0_0 : S2720x3.Slices ![0, 0] S2720x1
  shapeCasts_S2720x1_S2720 : S2720x1.ShapeCasts S2720
  slices_S256x2722_S256x2720_0_0 : S256x2722.Slices ![0, 0] S256x2720
  bcast_S2720_S1x2720_1 : S2720.BroadcastsInDim S1x2720 (![1] : Fin 1 → Fin S1x2720.rank)
  bcast_S1x2720_S256x2720_0_1 : S1x2720.BroadcastsInDim S256x2720 (![0, 1] : Fin 2 → Fin S256x2720.rank)
  slices_S2720x3_S2720x1_0_1 : S2720x3.Slices ![0, 1] S2720x1
  slices_S256x2722_S256x2720_0_1 : S256x2722.Slices ![0, 1] S256x2720
  slices_S2720x3_S2720x1_0_2 : S2720x3.Slices ![0, 2] S2720x1
  slices_S256x2722_S256x2720_0_2 : S256x2722.Slices ![0, 2] S256x2720
  bcast_S_S256x2720 : S_.BroadcastsInDim S256x2720 (![] : Fin 0 → Fin S256x2720.rank)
  shapeCasts_S256x2720_S256x5x16x34x1 : S256x2720.ShapeCasts S256x5x16x34x1
  slices_S256x5x16x34x1_S256x5x16x32x1_0_0_0_1_0 : S256x5x16x34x1.Slices ![0, 0, 0, 1, 0] S256x5x16x32x1
  pads_S256x5x16x32x1_S256x5x18x32x1_000_000_110_000_000 : S256x5x16x32x1.Pads (![0, 0, 1, 0, 0] : Fin 5 → Nat) ![0, 0, 1, 0, 0] ![0, 0, 0, 0, 0] S256x5x18x32x1
  transposes_S256x5x18x32x1_S256x5x32x18x1_0_1_3_2_4 : S256x5x18x32x1.Transposes [0, 1, 3, 2, 4] S256x5x32x18x1
  shapeCasts_S256x5x32x18x1_S256x2880 : S256x5x32x18x1.ShapeCasts S256x2880
  pads_S256x2880_S256x2882_000_110 : S256x2880.Pads (![0, 1] : Fin 2 → Nat) ![0, 1] ![0, 0] S256x2882
  slices_S2880x3_S2880x1_0_0 : S2880x3.Slices ![0, 0] S2880x1
  shapeCasts_S2880x1_S2880 : S2880x1.ShapeCasts S2880
  slices_S256x2882_S256x2880_0_0 : S256x2882.Slices ![0, 0] S256x2880
  bcast_S2880_S1x2880_1 : S2880.BroadcastsInDim S1x2880 (![1] : Fin 1 → Fin S1x2880.rank)
  bcast_S1x2880_S256x2880_0_1 : S1x2880.BroadcastsInDim S256x2880 (![0, 1] : Fin 2 → Fin S256x2880.rank)
  slices_S2880x3_S2880x1_0_1 : S2880x3.Slices ![0, 1] S2880x1
  slices_S256x2882_S256x2880_0_1 : S256x2882.Slices ![0, 1] S256x2880
  slices_S2880x3_S2880x1_0_2 : S2880x3.Slices ![0, 2] S2880x1
  slices_S256x2882_S256x2880_0_2 : S256x2882.Slices ![0, 2] S256x2880
  bcast_S_S256x2880 : S_.BroadcastsInDim S256x2880 (![] : Fin 0 → Fin S256x2880.rank)
  shapeCasts_S256x2880_S256x5x32x18x1 : S256x2880.ShapeCasts S256x5x32x18x1
  transposes_S256x5x32x18x1_S256x5x18x32x1_0_1_3_2_4 : S256x5x32x18x1.Transposes [0, 1, 3, 2, 4] S256x5x18x32x1
  slices_S256x5x18x32x1_S256x5x16x32x1_0_0_1_0_0 : S256x5x18x32x1.Slices ![0, 0, 1, 0, 0] S256x5x16x32x1
  bcast_S256x5x16x32x1_S256x5x1x16x1x32x1x1_0_1_3_5_7 : S256x5x16x32x1.BroadcastsInDim S256x5x1x16x1x32x1x1 (![0, 1, 3, 5, 7] : Fin 5 → Fin S256x5x1x16x1x32x1x1.rank)
  bcast_S256x5x1x16x1x32x1x1_S256x5x3x16x4x32x4x1_0_1_2_3_4_5_6_7 : S256x5x1x16x1x32x1x1.BroadcastsInDim S256x5x3x16x4x32x4x1 (![0, 1, 2, 3, 4, 5, 6, 7] : Fin 8 → Fin S256x5x3x16x4x32x4x1.rank)
  shapeCasts_S256x5x3x16x4x32x4x1_S256x15x64x128x1 : S256x5x3x16x4x32x4x1.ShapeCasts S256x15x64x128x1

variable [Facts₀]

class Facts : Prop extends Facts₀ where

variable [Facts]
-- ==== Proof.KernelRun.lean ====
/-
  The idealized kernel's run with its result named: every weakly fair execution of @main ends with the result
  buffer holding what the last boundary's contents (the fold of the host stretches and the three regions'
  write-backs over the launch memory) give it, and the argument arrays as launched.
-/
import proofs.«148199_j3393024163963_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run read at the result buffer as well as at the arguments: the final thread state holds every unscoped
    buffer at the last boundary's contents, and the result buffer is one of them. -/
theorem run_result : θ_run defs (onTc (τ := τ) (main (F := F))) ⟨m, fun _ => 0, ρ⟩ (fun r => ∀ c : Dev nD,
      r.2.mem ((c.tc : Thread nD τ).loc main_v45) = W31 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c =>
      ⟨h c _ (mem_uc main_v45 (by decide)),
       (h c _ (mem_uc main_arg0 (by decide))).trans (W31_main_arg0 m ρ c),
       (h c _ (mem_uc main_arg1 (by decide))).trans (W31_main_arg1 m ρ c),
       (h c _ (mem_uc main_arg2 (by decide))).trans (W31_main_arg2 m ρ c),
       (h c _ (mem_uc main_arg3 (by decide))).trans (W31_main_arg3 m ρ c),
       (h c _ (mem_uc main_arg4 (by decide))).trans (W31_main_arg4 m ρ c),
       (h c _ (mem_uc main_arg5 (by decide))).trans (W31_main_arg5 m ρ c),
       (h c _ (mem_uc main_arg6 (by decide))).trans (W31_main_arg6 m ρ c)⟩)

end Cert.KernelIdeal.RunValue

end
-- ==== Proof.Taps.lean ====
/-
  The layer every stage of this network applies: at position q of a row of length L, three taps of the
  zero-padded row (positions q, q+1, q+2 of the padded row) weighted by that position's own three
  weights, plus that position's bias, rectified. Stated once, index by index, for a weight table laid out
  as four rows (three weight rows and the bias row) over a padded array that may be wider than L + 2.
-/
import Idealize.ShloMosaic.PureOps.Ideal
import Idealize.ShloMosaic.Lib.ValueIdx

noncomputable section

namespace Cert.Taps

open Idealize.ShloMosaic Idealize.ShloMosaic.ValueIdx

/-- The rectified three-tap sum at row p, position q: the weights are rows 0, 1, 2 of the table at column q, the
    bias row 3 at column q; the taps are columns q, q + 1, q + 2 of row p of the padded array. The order of
    the additions is the one both programs use: ((t0 + t1) + t2) + bias. -/
def tapAt {B L L2 : Nat} (h : L + 2 ≤ L2) (X : FVec Ideal ⟨2, ![B, L2]⟩ .f32) (Wt : FVec Ideal ⟨2, ![4, L]⟩ .f32)
    (p : Fin B) (q : Fin L) : EReal :=
  max (((Wt (ix2 (0 : Fin 4) q) * X (ix2 p (⟨q.val, by omega⟩ : Fin L2))
        + Wt (ix2 (1 : Fin 4) q) * X (ix2 p (⟨q.val + 1, by omega⟩ : Fin L2)))
        + Wt (ix2 (2 : Fin 4) q) * X (ix2 p (⟨q.val + 2, by omega⟩ : Fin L2)))
        + Wt (ix2 (3 : Fin 4) q))
    (Ideal.ofBits .f32 0x00000000#32)

/-- The whole layer: every row, every position. -/
def tapRelu {B L L2 : Nat} (h : L + 2 ≤ L2) (X : FVec Ideal ⟨2, ![B, L2]⟩ .f32) (Wt : FVec Ideal ⟨2, ![4, L]⟩ .f32) :
    FVec Ideal ⟨2, ![B, L]⟩ .f32 :=
  fun j => tapAt h X Wt (j 0) (j 1)

theorem tapRelu_apply {B L L2 : Nat} (h : L + 2 ≤ L2) (X : FVec Ideal ⟨2, ![B, L2]⟩ .f32) (Wt : FVec Ideal ⟨2, ![4, L]⟩ .f32)
    (p : Fin B) (q : Fin L) : tapRelu h X Wt (ix2 p q) = tapAt h X Wt p q := rfl

end Cert.Taps

end
-- ==== Proof.Region0.lean ====
/-
  What the first stage's region leaves in its output array, whatever the buffers hold when the region is
  entered: the rectified three-tap layer (Taps) of the padded rows (window 0's array) and the four-row table
  (window 1's array). The grid walks the 256 rows in 8 blocks of 32; a block of the output depends on the
  same 32 rows of the padded array and on the whole table, so every block is the restriction of one
  whole-array function, and the blocks tile the array.
-/
import proofs.«148199_j3393024163963_2_alg».proof.Proof.Gen.KernelIdeal.Frame
import proofs.«148199_j3393024163963_2_alg».proof.Proof.Taps
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A row of the table, cast to its own shape and broadcast over the 32 rows of a block, read at (p, q) is the
    row at q. -/
theorem row_apply (w : Vec Ideal S1x3584 .f32) (h1 : S1x3584.ShapeCasts S1x3584) (h2 : S1x3584.Broadcasts S32x3584)
    (p : Fin 32) (q : Fin 3584) :
    broadcastTo S32x3584 (shapeCast S1x3584 w h1) h2 (ix2 p q) = w (ix2 (0 : Fin 1) q) := by
  rw [shapeCast_self]
  refine broadcastTo_apply w h2 (ix2 p q) (ix2 (0 : Fin 1) q) ?_
  intro a
  match a with
  | ⟨0, _⟩ => rfl
  | ⟨1, _⟩ => rfl

/-- The padded block, cast to its own shape and cut at column offset k (k = 0, 1, 2), read at (p, q) is the
    padded block at (p, q + k). -/
theorem tap_apply (x : Vec Ideal S32x3586 .f32) (h1 : S32x3586.ShapeCasts S32x3586) (k : Nat) (hk : k ≤ 2)
    (h2 : S32x3586.Slices ![0, k] S32x3584) (p : Fin 32) (q : Fin 3584) :
    extractStridedSlice S32x3584 ![0, k] (shapeCast S32x3586 x h1) h2 (ix2 p q)
      = x (ix2 p (⟨q.val + k, by omega⟩ : Fin 3586)) := by
  rw [shapeCast_self]
  refine extractStridedSlice_apply ![0, k] x h2 (ix2 p q) (ix2 p (⟨q.val + k, by omega⟩ : Fin 3586)) ?_
  intro a
  match a with
  | ⟨0, _⟩ => show p.val = 0 + p.val; omega
  | ⟨1, _⟩ => show q.val + k = k + q.val; omega

/-- The body's stored value at (p, q): the three taps of the loaded padded block weighted by the three loaded
    weight rows, plus the loaded bias row, rectified. -/
theorem pay_apply (x : Vec Ideal S32x3586 .f32) (w0 w1 w2 w3 : Vec Ideal S1x3584 .f32) (p : Fin 32) (q : Fin 3584) :
    k0_pay1 (F := Ideal) x w0 w1 w2 w3 (ix2 p q)
      = max (((w0 (ix2 (0 : Fin 1) q) * x (ix2 p (⟨q.val, by omega⟩ : Fin 3586))
            + w1 (ix2 (0 : Fin 1) q) * x (ix2 p (⟨q.val + 1, by omega⟩ : Fin 3586)))
            + w2 (ix2 (0 : Fin 1) q) * x (ix2 p (⟨q.val + 2, by omega⟩ : Fin 3586)))
            + w3 (ix2 (0 : Fin 1) q))
          (Ideal.ofBits .f32 0x00000000#32) := by
  unfold k0_pay1
  dsimp only [maximumf_apply, addf_apply, mulf_apply, broadcast_apply]
  rw [row_apply w0, row_apply w1, row_apply w2, row_apply w3,
    tap_apply x _ 0 (by omega), tap_apply x _ 1 (by omega), tap_apply x _ 2 (by omega)]
  rfl

/-! ## From blocks to the array -/

section Array
variable (V : (c : Dev nD) → (b : Ref sig .tc) → Buf (Elt Ideal) ((c : Thread nD τ).loc b))

/-- One table row loaded from the staged table: row k of the table. -/
theorem ld_row (w : Vec Ideal S4x3584 .f32) (k : Nat) (hk : k ≤ 3) (inb : ∀ a, (![k, 0] : Fin 2 → Nat) a + S1x3584.size a ≤ S4x3584.size a)
    (q : Fin 3584) :
    View.ld w (Rect.unit (s := S4x3584) ![k, 0] S1x3584.size inb) (ix2 (0 : Fin 1) q) = w (ix2 (⟨k, by omega⟩ : Fin 4) q) := by
  show w ((Rect.unit (s := S4x3584) ![k, 0] S1x3584.size inb).idx (ix2 (0 : Fin 1) q)) = _
  refine congrArg w (funext fun a => Fin.ext ?_)
  match a with
  | ⟨0, _⟩ => show k + 1 * 0 = k; omega
  | ⟨1, _⟩ => show 0 + 1 * q.val = q.val; omega

/-- A block of the output at (p, q), when the staged padded block holds rows 32 b … 32 b + 31 of the padded array X
    and the staged table is the whole table: the layer at row 32 b + p, position q. -/
theorem block_eq (X : FVec Ideal S256x3586 .f32) (Wt : FVec Ideal S4x3584 .f32)
    (x : Vec Ideal S32x3586 .f32) (w : Vec Ideal S4x3584 .f32) (b : Nat) (hb : b ≤ 7)
    (hx : ∀ (p : Fin 32) (q : Fin 3586), x (ix2 p q) = X (ix2 (⟨b * 32 + p.val, by omega⟩ : Fin 256) q))
    (hw : w = Wt) (p : Fin 32) (q : Fin 3584) :
    k0_pay1 (F := Ideal) (View.ld x r0_0) (View.ld w r0_1) (View.ld w r0_2) (View.ld w r0_3) (View.ld w r0_4) (ix2 p q)
      = Taps.tapAt (by omega : 3584 + 2 ≤ 3586) X Wt (⟨b * 32 + p.val, by omega⟩ : Fin 256) q := by
  subst hw
  rw [pay_apply, View.ld_unit_zero (S := S32x3586) hz,
    ld_row w 0 (by omega), ld_row w 1 (by omega), ld_row w 2 (by omega), ld_row w 3 (by omega), hx, hx, hx]
  rfl

/-- The printed index maps over the grid: the padded rows move with the output rows, the table stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block of rows is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- What point t writes back is block t of the layer of the two arrays as the region finds them. -/
theorem flushed_eq (c : Dev nD) (t : Fin cfg0.N) :
    (dat0 (F := Ideal) V c).flushed 2 t
      = ((cfg0.win 2).blk t).view.read (Elt Ideal) (Taps.tapRelu (by omega : 3584 + 2 ≤ 3586) (V c main_v7) (V c main_v10)) := by
  show (cfg0.win 2).cut (grid0.coords t) ((dat0 V c).after 2 t) = _
  rw [after0_2]
  unfold out0_2
  rw [View.canon_unit_zero hz]
  obtain ⟨e0, e1, e2, e3, e4, e5⟩ := idx_facts t
  refine funext fun (j : S32x3584.Idx) => ?_
  obtain ⟨p, q, rfl⟩ : ∃ (p : Fin 32) (q : Fin 3584), j = ix2 p q := ⟨j 0, j 1, eq_ix2 j⟩
  have hemb : (((cfg0.win 2).blk t).view.emb (ix2 p q) : S256x3584.Idx)
      = ix2 (⟨win0_2.index t (0 : Fin 2) * 32 + p.val, by omega⟩ : Fin 256) q := by
    funext a; apply Fin.ext
    match a with
    | ⟨0, _⟩ => show win0_2.index t (0 : Fin 2) * 32 + 1 * p.val = win0_2.index t (0 : Fin 2) * 32 + p.val; omega
    | ⟨1, _⟩ => show win0_2.index t (1 : Fin 2) * 3584 + 1 * q.val = q.val; omega
  show k0_pay1 (F := Ideal) (View.ld (iblk0 V c 0 t) r0_0) (View.ld (iblk0 V c 1 t) r0_1) (View.ld (iblk0 V c 1 t) r0_2)
      (View.ld (iblk0 V c 1 t) r0_3) (View.ld (iblk0 V c 1 t) r0_4) (ix2 p q)
    = Taps.tapRelu (by omega : 3584 + 2 ≤ 3586) (V c main_v7) (V c main_v10) (((cfg0.win 2).blk t).view.emb (ix2 p q))
  refine Eq.trans ?_ (congrArg (Taps.tapRelu (by omega : 3584 + 2 ≤ 3586) (V c main_v7) (V c main_v10)) hemb.symm)
  refine block_eq (V c main_v7) (V c main_v10) (iblk0 V c 0 t) (iblk0 V c 1 t) (win0_2.index t (0 : Fin 2)) e5 ?_ ?_ p q
  · intro p' q'
    show V c main_v7 (((cfg0.win 0).blk t).view.emb (ix2 p' q')) = V c main_v7 _
    refine congrArg (V c main_v7) (funext fun a => Fin.ext ?_)
    match a with
    | ⟨0, _⟩ => show win0_0.index t (0 : Fin 2) * 32 + 1 * p'.val = win0_2.index t (0 : Fin 2) * 32 + p'.val; omega
    | ⟨1, _⟩ => show win0_0.index t (1 : Fin 2) * 3586 + 1 * q'.val = q'.val; omega
  · refine funext fun (y : S4x3584.Idx) => ?_
    show V c main_v10 (((cfg0.win 1).blk t).view.emb y) = V c main_v10 y
    refine congrArg (V c main_v10) (funext fun a => Fin.ext ?_)
    match a with
    | ⟨0, _⟩ => show win0_1.index t (0 : Fin 2) * 4 + 1 * (y 0).val = (y 0).val; omega
    | ⟨1, _⟩ => show win0_1.index t (1 : Fin 2) * 3584 + 1 * (y 1).val = (y 1).val; omega

/-- An index of the array is in point t's block iff each coordinate is in the block's range on its axis. -/
theorem mem_blk (t : Fin cfg0.N) (i : S256x3584.Idx) :
    i ∈ ((cfg0.win 2).blk t).view.set ↔ ∀ a : Fin 2, win0_2.index t a * S32x3584.size a ≤ (i a).val ∧ (i a).val < win0_2.index t a * S32x3584.size a + S32x3584.size a := by
  show i ∈ ((View.whole main_v11).slice (win0_2.rect t)).set ↔ _
  rw [View.set_slice_whole, Rect.mem_set_unit]
  exact Iff.rfl

/-- The blocks tile the array: row r is in the block of point r / 32. -/
theorem cover (i : S256x3584.Idx) :
    ∃ t : Fin cfg0.N, (cfg0.win 2).flush t = true ∧ i ∈ ((cfg0.win 2).blk t).view.set := by
  have hi0 : (i 0).val < 256 := (i 0).isLt
  have hi1 : (i 1).val < 3584 := (i 1).isLt
  obtain ⟨t, ht⟩ := idx_onto ⟨(i 0).val / 32, by omega⟩
  have q0 : win0_2.index t (0 : Fin 2) = (i 0).val / 32 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 3584 ≤ (i 1).val ∧ (i 1).val < win0_2.index t (1 : Fin 2) * 3584 + 3584; omega

/-- The output array after the region: the layer of the padded array and the table as the region finds them. -/
theorem final (c : Dev nD) :
    (dat0 (F := Ideal) V c).arrAt 2 cfg0.N = Taps.tapRelu (by omega : 3584 + 2 ≤ 3586) (V c main_v7) (V c main_v10) :=
  (dat0 (F := Ideal) V c).arrAt_eq_of_cover 2 _ (fun t _ => flushed_eq V c t) cover

end Array

end Cert.KernelIdeal.Region0

end
-- ==== Proof.Region1.lean ====
/-
  What the second stage's region leaves in its output array, whatever the buffers hold when the region is
  entered: the rectified three-tap layer (Taps) of the padded rows (window 0's array) and the four-row table
  (window 1's array). The grid walks the 256 rows in 8 blocks of 32; a block of the output depends on the
  same 32 rows of the padded array and on the whole table, so every block is the restriction of one
  whole-array function, and the blocks tile the array.
-/
import proofs.«148199_j3393024163963_2_alg».proof.Proof.Gen.KernelIdeal.Frame
import proofs.«148199_j3393024163963_2_alg».proof.Proof.Taps
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A row of the table, cast to its own shape and broadcast over the 32 rows of a block, read at (p, q) is the
    row at q. -/
theorem row_apply (w : Vec Ideal S1x2816 .f32) (h1 : S1x2816.ShapeCasts S1x2816) (h2 : S1x2816.Broadcasts S32x2816)
    (p : Fin 32) (q : Fin 2816) :
    broadcastTo S32x2816 (shapeCast S1x2816 w h1) h2 (ix2 p q) = w (ix2 (0 : Fin 1) q) := by
  rw [shapeCast_self]
  refine broadcastTo_apply w h2 (ix2 p q) (ix2 (0 : Fin 1) q) ?_
  intro a
  match a with
  | ⟨0, _⟩ => rfl
  | ⟨1, _⟩ => rfl

/-- The padded block, cast to its own shape and cut at column offset k (k = 0, 1, 2), read at (p, q) is the
    padded block at (p, q + k). -/
theorem tap_apply (x : Vec Ideal S32x2818 .f32) (h1 : S32x2818.ShapeCasts S32x2818) (k : Nat) (hk : k ≤ 2)
    (h2 : S32x2818.Slices ![0, k] S32x2816) (p : Fin 32) (q : Fin 2816) :
    extractStridedSlice S32x2816 ![0, k] (shapeCast S32x2818 x h1) h2 (ix2 p q)
      = x (ix2 p (⟨q.val + k, by omega⟩ : Fin 2818)) := by
  rw [shapeCast_self]
  refine extractStridedSlice_apply ![0, k] x h2 (ix2 p q) (ix2 p (⟨q.val + k, by omega⟩ : Fin 2818)) ?_
  intro a
  match a with
  | ⟨0, _⟩ => show p.val = 0 + p.val; omega
  | ⟨1, _⟩ => show q.val + k = k + q.val; omega

/-- The body's stored value at (p, q): the three taps of the loaded padded block weighted by the three loaded
    weight rows, plus the loaded bias row, rectified. -/
theorem pay_apply (x : Vec Ideal S32x2818 .f32) (w0 w1 w2 w3 : Vec Ideal S1x2816 .f32) (p : Fin 32) (q : Fin 2816) :
    k1_pay1 (F := Ideal) x w0 w1 w2 w3 (ix2 p q)
      = max (((w0 (ix2 (0 : Fin 1) q) * x (ix2 p (⟨q.val, by omega⟩ : Fin 2818))
            + w1 (ix2 (0 : Fin 1) q) * x (ix2 p (⟨q.val + 1, by omega⟩ : Fin 2818)))
            + w2 (ix2 (0 : Fin 1) q) * x (ix2 p (⟨q.val + 2, by omega⟩ : Fin 2818)))
            + w3 (ix2 (0 : Fin 1) q))
          (Ideal.ofBits .f32 0x00000000#32) := by
  unfold k1_pay1
  dsimp only [maximumf_apply, addf_apply, mulf_apply, broadcast_apply]
  rw [row_apply w0, row_apply w1, row_apply w2, row_apply w3,
    tap_apply x _ 0 (by omega), tap_apply x _ 1 (by omega), tap_apply x _ 2 (by omega)]
  rfl

/-! ## From blocks to the array -/

section Array
variable (V : (c : Dev nD) → (b : Ref sig .tc) → Buf (Elt Ideal) ((c : Thread nD τ).loc b))

/-- One table row loaded from the staged table: row k of the table. -/
theorem ld_row (w : Vec Ideal S4x2816 .f32) (k : Nat) (hk : k ≤ 3) (inb : ∀ a, (![k, 0] : Fin 2 → Nat) a + S1x2816.size a ≤ S4x2816.size a)
    (q : Fin 2816) :
    View.ld w (Rect.unit (s := S4x2816) ![k, 0] S1x2816.size inb) (ix2 (0 : Fin 1) q) = w (ix2 (⟨k, by omega⟩ : Fin 4) q) := by
  show w ((Rect.unit (s := S4x2816) ![k, 0] S1x2816.size inb).idx (ix2 (0 : Fin 1) q)) = _
  refine congrArg w (funext fun a => Fin.ext ?_)
  match a with
  | ⟨0, _⟩ => show k + 1 * 0 = k; omega
  | ⟨1, _⟩ => show 0 + 1 * q.val = q.val; omega

/-- A block of the output at (p, q), when the staged padded block holds rows 32 b … 32 b + 31 of the padded array X
    and the staged table is the whole table: the layer at row 32 b + p, position q. -/
theorem block_eq (X : FVec Ideal S256x2818 .f32) (Wt : FVec Ideal S4x2816 .f32)
    (x : Vec Ideal S32x2818 .f32) (w : Vec Ideal S4x2816 .f32) (b : Nat) (hb : b ≤ 7)
    (hx : ∀ (p : Fin 32) (q : Fin 2818), x (ix2 p q) = X (ix2 (⟨b * 32 + p.val, by omega⟩ : Fin 256) q))
    (hw : w = Wt) (p : Fin 32) (q : Fin 2816) :
    k1_pay1 (F := Ideal) (View.ld x r1_0) (View.ld w r1_1) (View.ld w r1_2) (View.ld w r1_3) (View.ld w r1_4) (ix2 p q)
      = Taps.tapAt (by omega : 2816 + 2 ≤ 2818) X Wt (⟨b * 32 + p.val, by omega⟩ : Fin 256) q := by
  subst hw
  rw [pay_apply, View.ld_unit_zero (S := S32x2818) hz,
    ld_row w 0 (by omega), ld_row w 1 (by omega), ld_row w 2 (by omega), ld_row w 3 (by omega), hx, hx, hx]
  rfl

/-- The printed index maps over the grid: the padded rows move with the output rows, the table stays. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every block of rows is some point's. -/
theorem idx_onto : ∀ q0 : Fin 8, ∃ t : Fin cfg1.N, win1_2.index t = ![q0.val, 0] :=
  (by decide +kernel : ∀ q0 : Fin 8, ∃ t : Fin grid1.N, win1_2.index t = ![q0.val, 0])

/-- What point t writes back is block t of the layer of the two arrays as the region finds them. -/
theorem flushed_eq (c : Dev nD) (t : Fin cfg1.N) :
    (dat1 (F := Ideal) V c).flushed 2 t
      = ((cfg1.win 2).blk t).view.read (Elt Ideal) (Taps.tapRelu (by omega : 2816 + 2 ≤ 2818) (V c main_v18) (V c main_v23)) := by
  show (cfg1.win 2).cut (grid1.coords t) ((dat1 V c).after 2 t) = _
  rw [after1_2]
  unfold out1_2
  rw [View.canon_unit_zero hz]
  obtain ⟨e0, e1, e2, e3, e4, e5⟩ := idx_facts t
  refine funext fun (j : S32x2816.Idx) => ?_
  obtain ⟨p, q, rfl⟩ : ∃ (p : Fin 32) (q : Fin 2816), j = ix2 p q := ⟨j 0, j 1, eq_ix2 j⟩
  have hemb : (((cfg1.win 2).blk t).view.emb (ix2 p q) : S256x2816.Idx)
      = ix2 (⟨win1_2.index t (0 : Fin 2) * 32 + p.val, by omega⟩ : Fin 256) q := by
    funext a; apply Fin.ext
    match a with
    | ⟨0, _⟩ => show win1_2.index t (0 : Fin 2) * 32 + 1 * p.val = win1_2.index t (0 : Fin 2) * 32 + p.val; omega
    | ⟨1, _⟩ => show win1_2.index t (1 : Fin 2) * 2816 + 1 * q.val = q.val; omega
  show k1_pay1 (F := Ideal) (View.ld (iblk1 V c 0 t) r1_0) (View.ld (iblk1 V c 1 t) r1_1) (View.ld (iblk1 V c 1 t) r1_2)
      (View.ld (iblk1 V c 1 t) r1_3) (View.ld (iblk1 V c 1 t) r1_4) (ix2 p q)
    = Taps.tapRelu (by omega : 2816 + 2 ≤ 2818) (V c main_v18) (V c main_v23) (((cfg1.win 2).blk t).view.emb (ix2 p q))
  refine Eq.trans ?_ (congrArg (Taps.tapRelu (by omega : 2816 + 2 ≤ 2818) (V c main_v18) (V c main_v23)) hemb.symm)
  refine block_eq (V c main_v18) (V c main_v23) (iblk1 V c 0 t) (iblk1 V c 1 t) (win1_2.index t (0 : Fin 2)) e5 ?_ ?_ p q
  · intro p' q'
    show V c main_v18 (((cfg1.win 0).blk t).view.emb (ix2 p' q')) = V c main_v18 _
    refine congrArg (V c main_v18) (funext fun a => Fin.ext ?_)
    match a with
    | ⟨0, _⟩ => show win1_0.index t (0 : Fin 2) * 32 + 1 * p'.val = win1_2.index t (0 : Fin 2) * 32 + p'.val; omega
    | ⟨1, _⟩ => show win1_0.index t (1 : Fin 2) * 2818 + 1 * q'.val = q'.val; omega
  · refine funext fun (y : S4x2816.Idx) => ?_
    show V c main_v23 (((cfg1.win 1).blk t).view.emb y) = V c main_v23 y
    refine congrArg (V c main_v23) (funext fun a => Fin.ext ?_)
    match a with
    | ⟨0, _⟩ => show win1_1.index t (0 : Fin 2) * 4 + 1 * (y 0).val = (y 0).val; omega
    | ⟨1, _⟩ => show win1_1.index t (1 : Fin 2) * 2816 + 1 * (y 1).val = (y 1).val; omega

/-- An index of the array is in point t's block iff each coordinate is in the block's range on its axis. -/
theorem mem_blk (t : Fin cfg1.N) (i : S256x2816.Idx) :
    i ∈ ((cfg1.win 2).blk t).view.set ↔ ∀ a : Fin 2, win1_2.index t a * S32x2816.size a ≤ (i a).val ∧ (i a).val < win1_2.index t a * S32x2816.size a + S32x2816.size a := by
  show i ∈ ((View.whole main_v24).slice (win1_2.rect t)).set ↔ _
  rw [View.set_slice_whole, Rect.mem_set_unit]
  exact Iff.rfl

/-- The blocks tile the array: row r is in the block of point r / 32. -/
theorem cover (i : S256x2816.Idx) :
    ∃ t : Fin cfg1.N, (cfg1.win 2).flush t = true ∧ i ∈ ((cfg1.win 2).blk t).view.set := by
  have hi0 : (i 0).val < 256 := (i 0).isLt
  have hi1 : (i 1).val < 2816 := (i 1).isLt
  obtain ⟨t, ht⟩ := idx_onto ⟨(i 0).val / 32, by omega⟩
  have q0 : win1_2.index t (0 : Fin 2) = (i 0).val / 32 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 32 ≤ (i 0).val ∧ (i 0).val < win1_2.index t (0 : Fin 2) * 32 + 32; omega
  | ⟨1, _⟩ => show win1_2.index t (1 : Fin 2) * 2816 ≤ (i 1).val ∧ (i 1).val < win1_2.index t (1 : Fin 2) * 2816 + 2816; omega

/-- The output array after the region: the layer of the padded array and the table as the region finds them. -/
theorem final (c : Dev nD) :
    (dat1 (F := Ideal) V c).arrAt 2 cfg1.N = Taps.tapRelu (by omega : 2816 + 2 ≤ 2818) (V c main_v18) (V c main_v23) :=
  (dat1 (F := Ideal) V c).arrAt_eq_of_cover 2 _ (fun t _ => flushed_eq V c t) cover

end Array

end Cert.KernelIdeal.Region1

end
-- ==== Proof.Region2.lean ====
/-
  What the third stage's region leaves in its output array, whatever the buffers hold when the region is
  entered: the rectified three-tap layer (Taps) of the padded rows (window 0's array) and the four-row table
  (window 1's array). The grid walks the 256 rows in 8 blocks of 32; a block of the output depends on the
  same 32 rows of the padded array and on the whole table, so every block is the restriction of one
  whole-array function, and the blocks tile the array.
-/
import proofs.«148199_j3393024163963_2_alg».proof.Proof.Gen.KernelIdeal.Frame
import proofs.«148199_j3393024163963_2_alg».proof.Proof.Taps
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

theorem hz : (![0, 0] : Fin 2 → Nat) = fun _ => 0 := funext fun a => by fin_cases a <;> rfl

/-- A row of the table, cast to its own shape and broadcast over the 32 rows of a block, read at (p, q) is the
    row at q. -/
theorem row_apply (w : Vec Ideal S1x2944 .f32) (h1 : S1x2944.ShapeCasts S1x2944) (h2 : S1x2944.Broadcasts S32x2944)
    (p : Fin 32) (q : Fin 2944) :
    broadcastTo S32x2944 (shapeCast S1x2944 w h1) h2 (ix2 p q) = w (ix2 (0 : Fin 1) q) := by
  rw [shapeCast_self]
  refine broadcastTo_apply w h2 (ix2 p q) (ix2 (0 : Fin 1) q) ?_
  intro a
  match a with
  | ⟨0, _⟩ => rfl
  | ⟨1, _⟩ => rfl

/-- The padded block, cast to its own shape and cut at column offset k (k = 0, 1, 2), read at (p, q) is the
    padded block at (p, q + k). -/
theorem tap_apply (x : Vec Ideal S32x2946 .f32) (h1 : S32x2946.ShapeCasts S32x2946) (k : Nat) (hk : k ≤ 2)
    (h2 : S32x2946.Slices ![0, k] S32x2944) (p : Fin 32) (q : Fin 2944) :
    extractStridedSlice S32x2944 ![0, k] (shapeCast S32x2946 x h1) h2 (ix2 p q)
      = x (ix2 p (⟨q.val + k, by omega⟩ : Fin 2946)) := by
  rw [shapeCast_self]
  refine extractStridedSlice_apply ![0, k] x h2 (ix2 p q) (ix2 p (⟨q.val + k, by omega⟩ : Fin 2946)) ?_
  intro a
  match a with
  | ⟨0, _⟩ => show p.val = 0 + p.val; omega
  | ⟨1, _⟩ => show q.val + k = k + q.val; omega

/-- The body's stored value at (p, q): the three taps of the loaded padded block weighted by the three loaded
    weight rows, plus the loaded bias row, rectified. -/
theorem pay_apply (x : Vec Ideal S32x2946 .f32) (w0 w1 w2 w3 : Vec Ideal S1x2944 .f32) (p : Fin 32) (q : Fin 2944) :
    k2_pay1 (F := Ideal) x w0 w1 w2 w3 (ix2 p q)
      = max (((w0 (ix2 (0 : Fin 1) q) * x (ix2 p (⟨q.val, by omega⟩ : Fin 2946))
            + w1 (ix2 (0 : Fin 1) q) * x (ix2 p (⟨q.val + 1, by omega⟩ : Fin 2946)))
            + w2 (ix2 (0 : Fin 1) q) * x (ix2 p (⟨q.val + 2, by omega⟩ : Fin 2946)))
            + w3 (ix2 (0 : Fin 1) q))
          (Ideal.ofBits .f32 0x00000000#32) := by
  unfold k2_pay1
  dsimp only [maximumf_apply, addf_apply, mulf_apply, broadcast_apply]
  rw [row_apply w0, row_apply w1, row_apply w2, row_apply w3,
    tap_apply x _ 0 (by omega), tap_apply x _ 1 (by omega), tap_apply x _ 2 (by omega)]
  rfl

/-! ## From blocks to the array -/

section Array
variable (V : (c : Dev nD) → (b : Ref sig .tc) → Buf (Elt Ideal) ((c : Thread nD τ).loc b))

/-- One table row loaded from the staged table: row k of the table. -/
theorem ld_row (w : Vec Ideal S4x2944 .f32) (k : Nat) (hk : k ≤ 3) (inb : ∀ a, (![k, 0] : Fin 2 → Nat) a + S1x2944.size a ≤ S4x2944.size a)
    (q : Fin 2944) :
    View.ld w (Rect.unit (s := S4x2944) ![k, 0] S1x2944.size inb) (ix2 (0 : Fin 1) q) = w (ix2 (⟨k, by omega⟩ : Fin 4) q) := by
  show w ((Rect.unit (s := S4x2944) ![k, 0] S1x2944.size inb).idx (ix2 (0 : Fin 1) q)) = _
  refine congrArg w (funext fun a => Fin.ext ?_)
  match a with
  | ⟨0, _⟩ => show k + 1 * 0 = k; omega
  | ⟨1, _⟩ => show 0 + 1 * q.val = q.val; omega

/-- A block of the output at (p, q), when the staged padded block holds rows 32 b … 32 b + 31 of the padded array X
    and the staged table is the whole table: the layer at row 32 b + p, position q. -/
theorem block_eq (X : FVec Ideal S256x2946 .f32) (Wt : FVec Ideal S4x2944 .f32)
    (x : Vec Ideal S32x2946 .f32) (w : Vec Ideal S4x2944 .f32) (b : Nat) (hb : b ≤ 7)
    (hx : ∀ (p : Fin 32) (q : Fin 2946), x (ix2 p q) = X (ix2 (⟨b * 32 + p.val, by omega⟩ : Fin 256) q))
    (hw : w = Wt) (p : Fin 32) (q : Fin 2944) :
    k2_pay1 (F := Ideal) (View.ld x r2_0) (View.ld w r2_1) (View.ld w r2_2) (View.ld w r2_3) (View.ld w r2_4) (ix2 p q)
      = Taps.tapAt (by omega : 2944 + 2 ≤ 2946) X Wt (⟨b * 32 + p.val, by omega⟩ : Fin 256) q := by
  subst hw
  rw [pay_apply, View.ld_unit_zero (S := S32x2946) hz,
    ld_row w 0 (by omega), ld_row w 1 (by omega), ld_row w 2 (by omega), ld_row w 3 (by omega), hx, hx, hx]
  rfl

/-- The printed index maps over the grid: the padded rows move with the output rows, the table stays. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 7 :=
  (by decide +kernel : ∀ t : Fin grid2.N, _)

/-- Every block of rows is some point's. -/
theorem idx_onto : ∀ q0 : Fin 8, ∃ t : Fin cfg2.N, win2_2.index t = ![q0.val, 0] :=
  (by decide +kernel : ∀ q0 : Fin 8, ∃ t : Fin grid2.N, win2_2.index t = ![q0.val, 0])

/-- What point t writes back is block t of the layer of the two arrays as the region finds them. -/
theorem flushed_eq (c : Dev nD) (t : Fin cfg2.N) :
    (dat2 (F := Ideal) V c).flushed 2 t
      = ((cfg2.win 2).blk t).view.read (Elt Ideal) (Taps.tapRelu (by omega : 2944 + 2 ≤ 2946) (V c main_v32) (V c main_v37)) := by
  show (cfg2.win 2).cut (grid2.coords t) ((dat2 V c).after 2 t) = _
  rw [after2_2]
  unfold out2_2
  rw [View.canon_unit_zero hz]
  obtain ⟨e0, e1, e2, e3, e4, e5⟩ := idx_facts t
  refine funext fun (j : S32x2944.Idx) => ?_
  obtain ⟨p, q, rfl⟩ : ∃ (p : Fin 32) (q : Fin 2944), j = ix2 p q := ⟨j 0, j 1, eq_ix2 j⟩
  have hemb : (((cfg2.win 2).blk t).view.emb (ix2 p q) : S256x2944.Idx)
      = ix2 (⟨win2_2.index t (0 : Fin 2) * 32 + p.val, by omega⟩ : Fin 256) q := by
    funext a; apply Fin.ext
    match a with
    | ⟨0, _⟩ => show win2_2.index t (0 : Fin 2) * 32 + 1 * p.val = win2_2.index t (0 : Fin 2) * 32 + p.val; omega
    | ⟨1, _⟩ => show win2_2.index t (1 : Fin 2) * 2944 + 1 * q.val = q.val; omega
  show k2_pay1 (F := Ideal) (View.ld (iblk2 V c 0 t) r2_0) (View.ld (iblk2 V c 1 t) r2_1) (View.ld (iblk2 V c 1 t) r2_2)
      (View.ld (iblk2 V c 1 t) r2_3) (View.ld (iblk2 V c 1 t) r2_4) (ix2 p q)
    = Taps.tapRelu (by omega : 2944 + 2 ≤ 2946) (V c main_v32) (V c main_v37) (((cfg2.win 2).blk t).view.emb (ix2 p q))
  refine Eq.trans ?_ (congrArg (Taps.tapRelu (by omega : 2944 + 2 ≤ 2946) (V c main_v32) (V c main_v37)) hemb.symm)
  refine block_eq (V c main_v32) (V c main_v37) (iblk2 V c 0 t) (iblk2 V c 1 t) (win2_2.index t (0 : Fin 2)) e5 ?_ ?_ p q
  · intro p' q'
    show V c main_v32 (((cfg2.win 0).blk t).view.emb (ix2 p' q')) = V c main_v32 _
    refine congrArg (V c main_v32) (funext fun a => Fin.ext ?_)
    match a with
    | ⟨0, _⟩ => show win2_0.index t (0 : Fin 2) * 32 + 1 * p'.val = win2_2.index t (0 : Fin 2) * 32 + p'.val; omega
    | ⟨1, _⟩ => show win2_0.index t (1 : Fin 2) * 2946 + 1 * q'.val = q'.val; omega
  · refine funext fun (y : S4x2944.Idx) => ?_
    show V c main_v37 (((cfg2.win 1).blk t).view.emb y) = V c main_v37 y
    refine congrArg (V c main_v37) (funext fun a => Fin.ext ?_)
    match a with
    | ⟨0, _⟩ => show win2_1.index t (0 : Fin 2) * 4 + 1 * (y 0).val = (y 0).val; omega
    | ⟨1, _⟩ => show win2_1.index t (1 : Fin 2) * 2944 + 1 * (y 1).val = (y 1).val; omega

/-- An index of the array is in point t's block iff each coordinate is in the block's range on its axis. -/
theorem mem_blk (t : Fin cfg2.N) (i : S256x2944.Idx) :
    i ∈ ((cfg2.win 2).blk t).view.set ↔ ∀ a : Fin 2, win2_2.index t a * S32x2944.size a ≤ (i a).val ∧ (i a).val < win2_2.index t a * S32x2944.size a + S32x2944.size a := by
  show i ∈ ((View.whole main_v38).slice (win2_2.rect t)).set ↔ _
  rw [View.set_slice_whole, Rect.mem_set_unit]
  exact Iff.rfl

/-- The blocks tile the array: row r is in the block of point r / 32. -/
theorem cover (i : S256x2944.Idx) :
    ∃ t : Fin cfg2.N, (cfg2.win 2).flush t = true ∧ i ∈ ((cfg2.win 2).blk t).view.set := by
  have hi0 : (i 0).val < 256 := (i 0).isLt
  have hi1 : (i 1).val < 2944 := (i 1).isLt
  obtain ⟨t, ht⟩ := idx_onto ⟨(i 0).val / 32, by omega⟩
  have q0 : win2_2.index t (0 : Fin 2) = (i 0).val / 32 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 32 ≤ (i 0).val ∧ (i 0).val < win2_2.index t (0 : Fin 2) * 32 + 32; omega
  | ⟨1, _⟩ => show win2_2.index t (1 : Fin 2) * 2944 ≤ (i 1).val ∧ (i 1).val < win2_2.index t (1 : Fin 2) * 2944 + 2944; omega

/-- The output array after the region: the layer of the padded array and the table as the region finds them. -/
theorem final (c : Dev nD) :
    (dat2 (F := Ideal) V c).arrAt 2 cfg2.N = Taps.tapRelu (by omega : 2944 + 2 ≤ 2946) (V c main_v32) (V c main_v37) :=
  (dat2 (F := Ideal) V c).arrAt_eq_of_cover 2 _ (fun t _ => flushed_eq V c t) cover

end Array

end Cert.KernelIdeal.Region2

end
-- ==== Proof.Stage0.lean ====
/-
  Stage one (the depth axis), the two programs side by side on the same padded rows: the kernel applies the
  rectified three-tap layer (Taps) to the padded rows and a four-row table — the weights transposed, the bias
  row under them —, the reference multiplies the three shifted copies of the padded rows by the three weight
  columns broadcast over the rows, adds them in the same order, adds the broadcast bias and rectifies. At
  every row p and position q both are
      max (((w(q,0) · x(p,q) + w(q,1) · x(p,q+1)) + w(q,2) · x(p,q+2)) + b(q)) 0
  with the same operations in the same order, so no law of the extended reals is used: only where each
  layout operation reads.
-/
import proofs.«148199_j3393024163963_2_alg».proof.Proof.Gen.KernelIdeal
import proofs.«148199_j3393024163963_2_alg».proof.Proof.Gen.ReferenceIdeal.Read
import proofs.«148199_j3393024163963_2_alg».proof.Proof.Taps
import Idealize.ShloMosaic.Lib.Pipeline.Value
import Idealize.ShloMosaic.Lib.ValueIdx

set_option maxRecDepth 16384

noncomputable section

namespace Cert.Stage0

open Cert.KernelIdeal Cert.KernelIdeal.Gen Idealize.ShloMosaic Idealize.ShloMosaic.ValueIdx
open Cert.ReferenceIdeal.Read

/-- The four-row table the kernel's host side builds: rows 0, 1, 2 are the three weight columns (the weight
    array transposed), row 3 the bias. -/
def table (w : FVec Ideal S3584x3 .f32) (b : FVec Ideal S3584 .f32) : FVec Ideal S4x3584 .f32 :=
  concatenate S4x3584 0 [⟨S3x3584, transpose S3x3584 [1, 0] w transposes_S3584x3_S3x3584_1_0⟩,
    ⟨S1x3584, shapeCast S1x3584 b shapeCasts_S3584_S1x3584⟩] concatenates_S3x3584_S1x3584_S4x3584_d0

/-- Row k < 3 of the table at column q is weight (q, k). -/
theorem table_w (w : FVec Ideal S3584x3 .f32) (b : FVec Ideal S3584 .f32) (k : Fin 4) (hk : k.val < 3) (q : Fin 3584) :
    table w b (ix2 k q) = w (ix2 q (⟨k.val, hk⟩ : Fin 3)) := by
  unfold table
  refine (concatenate_pair_apply_left (t := S4x3584) (s₁ := S3x3584) (s₂ := S1x3584) (0 : Fin 2) _ _ concatenates_S3x3584_S1x3584_S4x3584_d0
    (ix2 k q) rfl (ix2 (⟨k.val, hk⟩ : Fin 3) q) ?_).trans ?_
  · intro a
    match a with
    | ⟨0, _⟩ => rfl
    | ⟨1, _⟩ => rfl
  · refine transpose_apply [1, 0] w transposes_S3584x3_S3x3584_1_0 (ix2 (⟨k.val, hk⟩ : Fin 3) q) (ix2 q (⟨k.val, hk⟩ : Fin 3)) ?_
    intro a
    match a with
    | ⟨0, _⟩ => rfl
    | ⟨1, _⟩ => rfl

/-- Row 3 of the table at column q is bias q. -/
theorem table_b (w : FVec Ideal S3584x3 .f32) (b : FVec Ideal S3584 .f32) (q : Fin 3584) :
    table w b (ix2 (3 : Fin 4) q) = b (ix1 q) := by
  unfold table
  refine (concatenate_pair_apply_right (t := S4x3584) (s₁ := S3x3584) (s₂ := S1x3584) (0 : Fin 2) _ _ concatenates_S3x3584_S1x3584_S4x3584_d0
    (ix2 (3 : Fin 4) q) rfl rfl (ix2 (0 : Fin 1) q) ?_ ?_).trans ?_
  · intro a ha
    match a with
    | ⟨0, _⟩ => exact absurd rfl ha
    | ⟨1, _⟩ => rfl
  · rfl
  · refine shapeCast_apply b shapeCasts_S3584_S1x3584 (ix2 (0 : Fin 1) q) (ix1 q) ?_
    rw [Shape.rowMajor_val_one, Shape.rowMajor_val_two]
    show q.val = 0 * 3584 + q.val
    omega

/-! ## The reference's operands, read at (p, q) -/

/-- Weight column 0, broadcast over the rows, at (p, q) is weight (q, 0). -/
theorem ref_w0 (w : FVec Ideal S3584x3 .f32) (p : Fin 256) (q : Fin 3584) :
    val_main_v12 (F := Ideal) w (ix2 p q) = w (ix2 q (0 : Fin 3)) := by
  rw [val_main_v12_apply, val_main_v11_apply, val_main_v9_apply, val_main_v8_apply]
  refine congrArg w (funext fun a => Fin.ext ?_)
  match a with
  | ⟨0, _⟩ => show q.val / 1 = q.val; omega
  | ⟨1, _⟩ => rfl

/-- Weight column 1, broadcast over the rows, at (p, q) is weight (q, 1). -/
theorem ref_w1 (w : FVec Ideal S3584x3 .f32) (p : Fin 256) (q : Fin 3584) :
    val_main_v18 (F := Ideal) w (ix2 p q) = w (ix2 q (1 : Fin 3)) := by
  rw [val_main_v18_apply, val_main_v17_apply, val_main_v15_apply, val_main_v14_apply]
  refine congrArg w (funext fun a => Fin.ext ?_)
  match a with
  | ⟨0, _⟩ => show q.val / 1 = q.val; omega
  | ⟨1, _⟩ => show 1 + 0 = 1; rfl

/-- Weight column 2, broadcast over the rows, at (p, q) is weight (q, 2). -/
theorem ref_w2 (w : FVec Ideal S3584x3 .f32) (p : Fin 256) (q : Fin 3584) :
    val_main_v25 (F := Ideal) w (ix2 p q) = w (ix2 q (2 : Fin 3)) := by
  rw [val_main_v25_apply, val_main_v24_apply, val_main_v22_apply, val_main_v21_apply]
  refine congrArg w (funext fun a => Fin.ext ?_)
  match a with
  | ⟨0, _⟩ => show q.val / 1 = q.val; omega
  | ⟨1, _⟩ => show 2 + 0 = 2; rfl

/-- The padded rows cut at column offset 0, at (p, q), are the padded rows at (p, q + 0). -/
theorem ref_t0 (x0 : FVec Ideal S256x15x64x128x1 .f32) (p : Fin 256) (q : Fin 3584) :
    val_main_v10 (F := Ideal) x0 (ix2 p q) = val_main_v7 (F := Ideal) x0 (ix2 p (⟨q.val + 0, by omega⟩ : Fin 3586)) := by
  rw [val_main_v10_apply]
  refine congrArg (val_main_v7 (F := Ideal) x0) (funext fun a => Fin.ext ?_)
  match a with
  | ⟨0, _⟩ => rfl
  | ⟨1, _⟩ => rfl

/-- The padded rows cut at column offset 1, at (p, q), are the padded rows at (p, q + 1). -/
theorem ref_t1 (x0 : FVec Ideal S256x15x64x128x1 .f32) (p : Fin 256) (q : Fin 3584) :
    val_main_v16 (F := Ideal) x0 (ix2 p q) = val_main_v7 (F := Ideal) x0 (ix2 p (⟨q.val + 1, by omega⟩ : Fin 3586)) := by
  rw [val_main_v16_apply]
  refine congrArg (val_main_v7 (F := Ideal) x0) (funext fun a => Fin.ext ?_)
  match a with
  | ⟨0, _⟩ => rfl
  | ⟨1, _⟩ => show 1 + q.val = q.val + 1; omega

/-- The padded rows cut at column offset 2, at (p, q), are the padded rows at (p, q + 2). -/
theorem ref_t2 (x0 : FVec Ideal S256x15x64x128x1 .f32) (p : Fin 256) (q : Fin 3584) :
    val_main_v23 (F := Ideal) x0 (ix2 p q) = val_main_v7 (F := Ideal) x0 (ix2 p (⟨q.val + 2, by omega⟩ : Fin 3586)) := by
  rw [val_main_v23_apply]
  refine congrArg (val_main_v7 (F := Ideal) x0) (funext fun a => Fin.ext ?_)
  match a with
  | ⟨0, _⟩ => rfl
  | ⟨1, _⟩ => show 2 + q.val = q.val + 2; omega

/-- The bias, broadcast over the rows, at (p, q) is bias q. -/
theorem ref_b (b : FVec Ideal S3584 .f32) (p : Fin 256) (q : Fin 3584) :
    val_main_v29 (F := Ideal) b (ix2 p q) = b (ix1 q) := by
  rw [val_main_v29_apply, val_main_v28_apply]
  refine congrArg b (funext fun a => Fin.ext ?_)
  match a with
  | ⟨0, _⟩ => rfl

/-- The rectifier's zero, broadcast, at any index is the zero word. -/
theorem ref_z (i : S256x3584.Idx) :
    val_main_call2_v0 (F := Ideal) i = Ideal.ofBits .f32 0x00000000#32 := by
  rw [val_main_call2_v0_apply]; rfl

/-! ## The two sides are one function -/

/-- Stage one: the kernel's layer of the padded rows and its table is the reference's stage, as whole arrays. -/
theorem stage (x0 : FVec Ideal S256x15x64x128x1 .f32) (w : FVec Ideal S3584x3 .f32) (b : FVec Ideal S3584 .f32) :
    Taps.tapRelu (by omega : 3584 + 2 ≤ 3586) (val_main_v7 (F := Ideal) x0) (table w b)
      = val_main_v31 (F := Ideal) x0 w b := by
  funext j
  obtain ⟨p, q, rfl⟩ : ∃ (p : Fin 256) (q : Fin 3584), j = ix2 p q := ⟨j 0, j 1, eq_ix2 j⟩
  rw [Taps.tapRelu_apply]
  unfold Taps.tapAt
  rw [table_w w b 0 (by decide) q, table_w w b 1 (by decide) q, table_w w b 2 (by decide) q, table_b w b q]
  rw [val_main_v31_apply, val_main_v30_apply, val_main_v27_apply, val_main_v20_apply, val_main_v13_apply,
    val_main_v19_apply, val_main_v26_apply, ref_w0, ref_w1, ref_w2, ref_t0, ref_t1, ref_t2, ref_b, ref_z]
  rfl

end Cert.Stage0

end
-- ==== Proof.Stage1.lean ====
/-
  Stage two (the longitude axis), the two programs side by side on the same padded rows. The kernel first
  lengthens everything to 2816 positions (a multiple of 128): the padded rows get 96 more zeros on the right, the
  weights 96 zero rows, the bias 96 zeros; it applies the rectified three-tap layer (Taps) with the four-row
  table of the lengthened weights and bias, and keeps the first 2720 positions. A kept position q < 2720 reads the
  lengthened rows at q, q + 1, q + 2 ≤ 2721, which are the original padded rows there, and column q of the table,
  which holds the original weights and bias: so at every row p and kept position q both programs are
      max (((w(q,0) · x(p,q) + w(q,1) · x(p,q+1)) + w(q,2) · x(p,q+2)) + b(q)) 0
  with the same operations in the same order; no law of the extended reals is used.
-/
import proofs.«148199_j3393024163963_2_alg».proof.Proof.Gen.KernelIdeal
import proofs.«148199_j3393024163963_2_alg».proof.Proof.Gen.ReferenceIdeal.Read
import proofs.«148199_j3393024163963_2_alg».proof.Proof.Taps
import Idealize.ShloMosaic.Lib.Pipeline.Value
import Idealize.ShloMosaic.Lib.KernelVsHost
import Idealize.ShloMosaic.Lib.ValueIdx

set_option maxRecDepth 16384

noncomputable section

namespace Cert.Stage1

open Cert.KernelIdeal Cert.KernelIdeal.Gen Idealize.ShloMosaic Idealize.ShloMosaic.ValueIdx
open Cert.ReferenceIdeal.Read

/-- The padded rows lengthened on the right with 96 zeros. -/
def padRows (Y : FVec Ideal S256x2722 .f32) : FVec Ideal S256x2818 .f32 :=
  pad S256x2818 ![0, 0] ![0, 96] ![0, 0] Y (sitofp (F := Ideal) .f32 (constantI S_ 32 0#32)) pads_S256x2722_S256x2818_000_0960 h_S_

/-- The four-row table the kernel's host side builds from the lengthened weights and bias: rows 0, 1, 2 are the
    three weight columns, row 3 the bias. -/
def table (w : FVec Ideal S2720x3 .f32) (b : FVec Ideal S2720 .f32) : FVec Ideal S4x2816 .f32 :=
  concatenate S4x2816 0
    [⟨S3x2816, transpose S3x2816 [1, 0]
        (pad S2816x3 ![0, 0] ![96, 0] ![0, 0] w (sitofp (F := Ideal) .f32 (constantI S_ 32 0#32)) pads_S2720x3_S2816x3_0960_000 h_S_)
        transposes_S2816x3_S3x2816_1_0⟩,
     ⟨S1x2816, shapeCast S1x2816
        (pad S2816 ![0] ![96] ![0] b (sitofp (F := Ideal) .f32 (constantI S_ 32 0#32)) pads_S2720_S2816_0960 h_S_)
        shapeCasts_S2816_S1x2816⟩]
    concatenates_S3x2816_S1x2816_S4x2816_d0

/-- The lengthened rows at a column of the original padded rows are the original padded rows. -/
theorem padRows_apply (Y : FVec Ideal S256x2722 .f32) (p : Fin 256) (j : Fin 2818) (hj : j.val < 2722) :
    padRows Y (ix2 p j) = Y (ix2 p (⟨j.val, hj⟩ : Fin 2722)) := by
  unfold padRows
  refine pad_apply_of_inside _ _ _ Y _ pads_S256x2722_S256x2818_000_0960 h_S_ (ix2 p j) (ix2 p (⟨j.val, hj⟩ : Fin 2722)) ?_
  intro a
  match a with
  | ⟨0, _⟩ => show p.val = 0 + p.val * (0 + 1); omega
  | ⟨1, _⟩ => show j.val = 0 + j.val * (0 + 1); omega

/-- Row k < 3 of the table at a column q of the original length is weight (q, k). -/
theorem table_w (w : FVec Ideal S2720x3 .f32) (b : FVec Ideal S2720 .f32) (k : Fin 4) (hk : k.val < 3) (q : Fin 2816)
    (hq : q.val < 2720) : table w b (ix2 k q) = w (ix2 (⟨q.val, hq⟩ : Fin 2720) (⟨k.val, hk⟩ : Fin 3)) := by
  unfold table
  refine (concatenate_pair_apply_left (t := S4x2816) (s₁ := S3x2816) (s₂ := S1x2816) (0 : Fin 2) _ _ concatenates_S3x2816_S1x2816_S4x2816_d0
    (ix2 k q) rfl (ix2 (⟨k.val, hk⟩ : Fin 3) q) ?_).trans ?_
  · intro a
    match a with
    | ⟨0, _⟩ => rfl
    | ⟨1, _⟩ => rfl
  refine (transpose_apply [1, 0] _ transposes_S2816x3_S3x2816_1_0 (ix2 (⟨k.val, hk⟩ : Fin 3) q) (ix2 q (⟨k.val, hk⟩ : Fin 3)) ?_).trans ?_
  · intro a
    match a with
    | ⟨0, _⟩ => rfl
    | ⟨1, _⟩ => rfl
  refine pad_apply_of_inside _ _ _ w _ pads_S2720x3_S2816x3_0960_000 h_S_ (ix2 q (⟨k.val, hk⟩ : Fin 3))
    (ix2 (⟨q.val, hq⟩ : Fin 2720) (⟨k.val, hk⟩ : Fin 3)) ?_
  intro a
  match a with
  | ⟨0, _⟩ => show q.val = 0 + q.val * (0 + 1); omega
  | ⟨1, _⟩ => show k.val = 0 + k.val * (0 + 1); omega

/-- Row 3 of the table at a column q of the original length is bias q. -/
theorem table_b (w : FVec Ideal S2720x3 .f32) (b : FVec Ideal S2720 .f32) (q : Fin 2816) (hq : q.val < 2720) :
    table w b (ix2 (3 : Fin 4) q) = b (ix1 (⟨q.val, hq⟩ : Fin 2720)) := by
  unfold table
  refine (concatenate_pair_apply_right (t := S4x2816) (s₁ := S3x2816) (s₂ := S1x2816) (0 : Fin 2) _ _ concatenates_S3x2816_S1x2816_S4x2816_d0
    (ix2 (3 : Fin 4) q) rfl rfl (ix2 (0 : Fin 1) q) ?_ ?_).trans ?_
  · intro a ha
    match a with
    | ⟨0, _⟩ => exact absurd rfl ha
    | ⟨1, _⟩ => rfl
  · rfl
  refine (shapeCast_apply _ shapeCasts_S2816_S1x2816 (ix2 (0 : Fin 1) q) (ix1 q) ?_).trans ?_
  · rw [Shape.rowMajor_val_one, Shape.rowMajor_val_two]
    show q.val = 0 * 2816 + q.val
    omega
  refine pad_apply_of_inside _ _ _ b _ pads_S2720_S2816_0960 h_S_ (ix1 q) (ix1 (⟨q.val, hq⟩ : Fin 2720)) ?_
  intro a
  match a with
  | ⟨0, _⟩ => show q.val = 0 + q.val * (0 + 1); omega

/-! ## The reference's operands, read at (p, q) -/

/-- Weight column 0, broadcast over the rows, at (p, q) is weight (q, 0). -/
theorem ref_w0 (w : FVec Ideal S2720x3 .f32) (p : Fin 256) (q : Fin 2720) :
    val_main_v42 (F := Ideal) w (ix2 p q) = w (ix2 q (0 : Fin 3)) := by
  rw [val_main_v42_apply, val_main_v41_apply, val_main_v39_apply, val_main_v38_apply]
  refine congrArg w (funext fun a => Fin.ext ?_)
  match a with
  | ⟨0, _⟩ => show q.val / 1 = q.val; omega
  | ⟨1, _⟩ => rfl

/-- Weight column 1, broadcast over the rows, at (p, q) is weight (q, 1). -/
theorem ref_w1 (w : FVec Ideal S2720x3 .f32) (p : Fin 256) (q : Fin 2720) :
    val_main_v48 (F := Ideal) w (ix2 p q) = w (ix2 q (1 : Fin 3)) := by
  rw [val_main_v48_apply, val_main_v47_apply, val_main_v45_apply, val_main_v44_apply]
  refine congrArg w (funext fun a => Fin.ext ?_)
  match a with
  | ⟨0, _⟩ => show q.val / 1 = q.val; omega
  | ⟨1, _⟩ => show 1 + 0 = 1; rfl

/-- Weight column 2, broadcast over the rows, at (p, q) is weight (q, 2). -/
theorem ref_w2 (w : FVec Ideal S2720x3 .f32) (p : Fin 256) (q : Fin 2720) :
    val_main_v55 (F := Ideal) w (ix2 p q) = w (ix2 q (2 : Fin 3)) := by
  rw [val_main_v55_apply, val_main_v54_apply, val_main_v52_apply, val_main_v51_apply]
  refine congrArg w (funext fun a => Fin.ext ?_)
  match a with
  | ⟨0, _⟩ => show q.val / 1 = q.val; omega
  | ⟨1, _⟩ => show 2 + 0 = 2; rfl

/-- The padded rows cut at column offset 0, at (p, q), are the padded rows at (p, q + 0). -/
theorem ref_t0 (x0 : FVec Ideal S256x15x64x128x1 .f32) (x1 : FVec Ideal S3584x3 .f32) (x2 : FVec Ideal S3584 .f32) (p : Fin 256) (q : Fin 2720) :
    val_main_v40 (F := Ideal) x0 x1 x2 (ix2 p q) = val_main_v37 (F := Ideal) x0 x1 x2 (ix2 p (⟨q.val + 0, by omega⟩ : Fin 2722)) := by
  rw [val_main_v40_apply]
  refine congrArg (val_main_v37 (F := Ideal) x0 x1 x2) (funext fun a => Fin.ext ?_)
  match a with
  | ⟨0, _⟩ => rfl
  | ⟨1, _⟩ => rfl

/-- The padded rows cut at column offset 1, at (p, q), are the padded rows at (p, q + 1). -/
theorem ref_t1 (x0 : FVec Ideal S256x15x64x128x1 .f32) (x1 : FVec Ideal S3584x3 .f32) (x2 : FVec Ideal S3584 .f32) (p : Fin 256) (q : Fin 2720) :
    val_main_v46 (F := Ideal) x0 x1 x2 (ix2 p q) = val_main_v37 (F := Ideal) x0 x1 x2 (ix2 p (⟨q.val + 1, by omega⟩ : Fin 2722)) := by
  rw [val_main_v46_apply]
  refine congrArg (val_main_v37 (F := Ideal) x0 x1 x2) (funext fun a => Fin.ext ?_)
  match a with
  | ⟨0, _⟩ => rfl
  | ⟨1, _⟩ => show 1 + q.val = q.val + 1; omega

/-- The padded rows cut at column offset 2, at (p, q), are the padded rows at (p, q + 2). -/
theorem ref_t2 (x0 : FVec Ideal S256x15x64x128x1 .f32) (x1 : FVec Ideal S3584x3 .f32) (x2 : FVec Ideal S3584 .f32) (p : Fin 256) (q : Fin 2720) :
    val_main_v53 (F := Ideal) x0 x1 x2 (ix2 p q) = val_main_v37 (F := Ideal) x0 x1 x2 (ix2 p (⟨q.val + 2, by omega⟩ : Fin 2722)) := by
  rw [val_main_v53_apply]
  refine congrArg (val_main_v37 (F := Ideal) x0 x1 x2) (funext fun a => Fin.ext ?_)
  match a with
  | ⟨0, _⟩ => rfl
  | ⟨1, _⟩ => show 2 + q.val = q.val + 2; omega

/-- The bias, broadcast over the rows, at (p, q) is bias q. -/
theorem ref_b (b : FVec Ideal S2720 .f32) (p : Fin 256) (q : Fin 2720) :
    val_main_v59 (F := Ideal) b (ix2 p q) = b (ix1 q) := by
  rw [val_main_v59_apply, val_main_v58_apply]
  refine congrArg b (funext fun a => Fin.ext ?_)
  match a with
  | ⟨0, _⟩ => rfl

/-- The rectifier's zero, broadcast, at any index is the zero word. -/
theorem ref_z (i : S256x2720.Idx) :
    val_main_call5_v0 (F := Ideal) i = Ideal.ofBits .f32 0x00000000#32 := by
  rw [val_main_call5_v0_apply]; rfl

/-! ## The two sides are one function -/

/-- Stage two: the kernel's layer over the lengthened rows and table, cut back to the 2720 real positions, is the
    reference's stage, as whole arrays. -/
theorem stage (x0 : FVec Ideal S256x15x64x128x1 .f32) (x1 : FVec Ideal S3584x3 .f32) (x2 : FVec Ideal S3584 .f32) (w : FVec Ideal S2720x3 .f32) (b : FVec Ideal S2720 .f32) :
    extractStridedSlice S256x2720 ![0, 0]
        (Taps.tapRelu (by omega : 2816 + 2 ≤ 2818) (padRows (val_main_v37 (F := Ideal) x0 x1 x2)) (table w b))
        slices_S256x2816_S256x2720_0_0
      = val_main_v61 (F := Ideal) x0 x1 x2 w b := by
  funext j
  obtain ⟨p, q, rfl⟩ : ∃ (p : Fin 256) (q : Fin 2720), j = ix2 p q := ⟨j 0, j 1, eq_ix2 j⟩
  have hq : q.val < 2720 := q.isLt
  refine (extractStridedSlice_apply ![0, 0] _ slices_S256x2816_S256x2720_0_0 (ix2 p q)
    (ix2 p (⟨q.val, by omega⟩ : Fin 2816)) ?_).trans ?_
  · intro a
    match a with
    | ⟨0, _⟩ => show p.val = 0 + p.val; omega
    | ⟨1, _⟩ => show q.val = 0 + q.val; omega
  rw [Taps.tapRelu_apply]
  unfold Taps.tapAt
  rw [table_w w b 0 (by decide) _ hq, table_w w b 1 (by decide) _ hq, table_w w b 2 (by decide) _ hq, table_b w b _ hq,
    padRows_apply _ p _ (show q.val < 2722 by omega), padRows_apply _ p _ (show q.val + 1 < 2722 by omega),
    padRows_apply _ p _ (show q.val + 2 < 2722 by omega)]
  rw [val_main_v61_apply, val_main_v60_apply, val_main_v57_apply, val_main_v50_apply, val_main_v43_apply,
    val_main_v49_apply, val_main_v56_apply, ref_w0, ref_w1, ref_w2, ref_t0, ref_t1, ref_t2, ref_b, ref_z]
  rfl

end Cert.Stage1

end
-- ==== Proof.Stage2.lean ====
/-
  Stage three (the latitude axis), the two programs side by side on the same padded rows. The kernel first
  lengthens everything to 2944 positions (a multiple of 128): the padded rows get 64 more zeros on the right, the
  weights 64 zero rows, the bias 64 zeros; it applies the rectified three-tap layer (Taps) with the four-row
  table of the lengthened weights and bias, and keeps the first 2880 positions. A kept position q < 2880 reads the
  lengthened rows at q, q + 1, q + 2 ≤ 2881, which are the original padded rows there, and column q of the table,
  which holds the original weights and bias: so at every row p and kept position q both programs are
      max (((w(q,0) · x(p,q) + w(q,1) · x(p,q+1)) + w(q,2) · x(p,q+2)) + b(q)) 0
  with the same operations in the same order; no law of the extended reals is used.
-/
import proofs.«148199_j3393024163963_2_alg».proof.Proof.Gen.KernelIdeal
import proofs.«148199_j3393024163963_2_alg».proof.Proof.Gen.ReferenceIdeal.Read
import proofs.«148199_j3393024163963_2_alg».proof.Proof.Taps
import Idealize.ShloMosaic.Lib.Pipeline.Value
import Idealize.ShloMosaic.Lib.KernelVsHost
import Idealize.ShloMosaic.Lib.ValueIdx

set_option maxRecDepth 16384

noncomputable section

namespace Cert.Stage2

open Cert.KernelIdeal Cert.KernelIdeal.Gen Idealize.ShloMosaic Idealize.ShloMosaic.ValueIdx
open Cert.ReferenceIdeal.Read

/-- The padded rows lengthened on the right with 64 zeros. -/
def padRows (Y : FVec Ideal S256x2882 .f32) : FVec Ideal S256x2946 .f32 :=
  pad S256x2946 ![0, 0] ![0, 64] ![0, 0] Y (sitofp (F := Ideal) .f32 (constantI S_ 32 0#32)) pads_S256x2882_S256x2946_000_0640 h_S_

/-- The four-row table the kernel's host side builds from the lengthened weights and bias: rows 0, 1, 2 are the
    three weight columns, row 3 the bias. -/
def table (w : FVec Ideal S2880x3 .f32) (b : FVec Ideal S2880 .f32) : FVec Ideal S4x2944 .f32 :=
  concatenate S4x2944 0
    [⟨S3x2944, transpose S3x2944 [1, 0]
        (pad S2944x3 ![0, 0] ![64, 0] ![0, 0] w (sitofp (F := Ideal) .f32 (constantI S_ 32 0#32)) pads_S2880x3_S2944x3_0640_000 h_S_)
        transposes_S2944x3_S3x2944_1_0⟩,
     ⟨S1x2944, shapeCast S1x2944
        (pad S2944 ![0] ![64] ![0] b (sitofp (F := Ideal) .f32 (constantI S_ 32 0#32)) pads_S2880_S2944_0640 h_S_)
        shapeCasts_S2944_S1x2944⟩]
    concatenates_S3x2944_S1x2944_S4x2944_d0

/-- The lengthened rows at a column of the original padded rows are the original padded rows. -/
theorem padRows_apply (Y : FVec Ideal S256x2882 .f32) (p : Fin 256) (j : Fin 2946) (hj : j.val < 2882) :
    padRows Y (ix2 p j) = Y (ix2 p (⟨j.val, hj⟩ : Fin 2882)) := by
  unfold padRows
  refine pad_apply_of_inside _ _ _ Y _ pads_S256x2882_S256x2946_000_0640 h_S_ (ix2 p j) (ix2 p (⟨j.val, hj⟩ : Fin 2882)) ?_
  intro a
  match a with
  | ⟨0, _⟩ => show p.val = 0 + p.val * (0 + 1); omega
  | ⟨1, _⟩ => show j.val = 0 + j.val * (0 + 1); omega

/-- Row k < 3 of the table at a column q of the original length is weight (q, k). -/
theorem table_w (w : FVec Ideal S2880x3 .f32) (b : FVec Ideal S2880 .f32) (k : Fin 4) (hk : k.val < 3) (q : Fin 2944)
    (hq : q.val < 2880) : table w b (ix2 k q) = w (ix2 (⟨q.val, hq⟩ : Fin 2880) (⟨k.val, hk⟩ : Fin 3)) := by
  unfold table
  refine (concatenate_pair_apply_left (t := S4x2944) (s₁ := S3x2944) (s₂ := S1x2944) (0 : Fin 2) _ _ concatenates_S3x2944_S1x2944_S4x2944_d0
    (ix2 k q) rfl (ix2 (⟨k.val, hk⟩ : Fin 3) q) ?_).trans ?_
  · intro a
    match a with
    | ⟨0, _⟩ => rfl
    | ⟨1, _⟩ => rfl
  refine (transpose_apply [1, 0] _ transposes_S2944x3_S3x2944_1_0 (ix2 (⟨k.val, hk⟩ : Fin 3) q) (ix2 q (⟨k.val, hk⟩ : Fin 3)) ?_).trans ?_
  · intro a
    match a with
    | ⟨0, _⟩ => rfl
    | ⟨1, _⟩ => rfl
  refine pad_apply_of_inside _ _ _ w _ pads_S2880x3_S2944x3_0640_000 h_S_ (ix2 q (⟨k.val, hk⟩ : Fin 3))
    (ix2 (⟨q.val, hq⟩ : Fin 2880) (⟨k.val, hk⟩ : Fin 3)) ?_
  intro a
  match a with
  | ⟨0, _⟩ => show q.val = 0 + q.val * (0 + 1); omega
  | ⟨1, _⟩ => show k.val = 0 + k.val * (0 + 1); omega

/-- Row 3 of the table at a column q of the original length is bias q. -/
theorem table_b (w : FVec Ideal S2880x3 .f32) (b : FVec Ideal S2880 .f32) (q : Fin 2944) (hq : q.val < 2880) :
    table w b (ix2 (3 : Fin 4) q) = b (ix1 (⟨q.val, hq⟩ : Fin 2880)) := by
  unfold table
  refine (concatenate_pair_apply_right (t := S4x2944) (s₁ := S3x2944) (s₂ := S1x2944) (0 : Fin 2) _ _ concatenates_S3x2944_S1x2944_S4x2944_d0
    (ix2 (3 : Fin 4) q) rfl rfl (ix2 (0 : Fin 1) q) ?_ ?_).trans ?_
  · intro a ha
    match a with
    | ⟨0, _⟩ => exact absurd rfl ha
    | ⟨1, _⟩ => rfl
  · rfl
  refine (shapeCast_apply _ shapeCasts_S2944_S1x2944 (ix2 (0 : Fin 1) q) (ix1 q) ?_).trans ?_
  · rw [Shape.rowMajor_val_one, Shape.rowMajor_val_two]
    show q.val = 0 * 2944 + q.val
    omega
  refine pad_apply_of_inside _ _ _ b _ pads_S2880_S2944_0640 h_S_ (ix1 q) (ix1 (⟨q.val, hq⟩ : Fin 2880)) ?_
  intro a
  match a with
  | ⟨0, _⟩ => show q.val = 0 + q.val * (0 + 1); omega

/-! ## The reference's operands, read at (p, q) -/

/-- Weight column 0, broadcast over the rows, at (p, q) is weight (q, 0). -/
theorem ref_w0 (w : FVec Ideal S2880x3 .f32) (p : Fin 256) (q : Fin 2880) :
    val_main_v72 (F := Ideal) w (ix2 p q) = w (ix2 q (0 : Fin 3)) := by
  rw [val_main_v72_apply, val_main_v71_apply, val_main_v69_apply, val_main_v68_apply]
  refine congrArg w (funext fun a => Fin.ext ?_)
  match a with
  | ⟨0, _⟩ => show q.val / 1 = q.val; omega
  | ⟨1, _⟩ => rfl

/-- Weight column 1, broadcast over the rows, at (p, q) is weight (q, 1). -/
theorem ref_w1 (w : FVec Ideal S2880x3 .f32) (p : Fin 256) (q : Fin 2880) :
    val_main_v78 (F := Ideal) w (ix2 p q) = w (ix2 q (1 : Fin 3)) := by
  rw [val_main_v78_apply, val_main_v77_apply, val_main_v75_apply, val_main_v74_apply]
  refine congrArg w (funext fun a => Fin.ext ?_)
  match a with
  | ⟨0, _⟩ => show q.val / 1 = q.val; omega
  | ⟨1, _⟩ => show 1 + 0 = 1; rfl

/-- Weight column 2, broadcast over the rows, at (p, q) is weight (q, 2). -/
theorem ref_w2 (w : FVec Ideal S2880x3 .f32) (p : Fin 256) (q : Fin 2880) :
    val_main_v85 (F := Ideal) w (ix2 p q) = w (ix2 q (2 : Fin 3)) := by
  rw [val_main_v85_apply, val_main_v84_apply, val_main_v82_apply, val_main_v81_apply]
  refine congrArg w (funext fun a => Fin.ext ?_)
  match a with
  | ⟨0, _⟩ => show q.val / 1 = q.val; omega
  | ⟨1, _⟩ => show 2 + 0 = 2; rfl

/-- The padded rows cut at column offset 0, at (p, q), are the padded rows at (p, q + 0). -/
theorem ref_t0 (x0 : FVec Ideal S256x15x64x128x1 .f32) (x1 : FVec Ideal S3584x3 .f32) (x2 : FVec Ideal S3584 .f32) (x3 : FVec Ideal S2720x3 .f32) (x4 : FVec Ideal S2720 .f32) (p : Fin 256) (q : Fin 2880) :
    val_main_v70 (F := Ideal) x0 x1 x2 x3 x4 (ix2 p q) = val_main_v67 (F := Ideal) x0 x1 x2 x3 x4 (ix2 p (⟨q.val + 0, by omega⟩ : Fin 2882)) := by
  rw [val_main_v70_apply]
  refine congrArg (val_main_v67 (F := Ideal) x0 x1 x2 x3 x4) (funext fun a => Fin.ext ?_)
  match a with
  | ⟨0, _⟩ => rfl
  | ⟨1, _⟩ => rfl

/-- The padded rows cut at column offset 1, at (p, q), are the padded rows at (p, q + 1). -/
theorem ref_t1 (x0 : FVec Ideal S256x15x64x128x1 .f32) (x1 : FVec Ideal S3584x3 .f32) (x2 : FVec Ideal S3584 .f32) (x3 : FVec Ideal S2720x3 .f32) (x4 : FVec Ideal S2720 .f32) (p : Fin 256) (q : Fin 2880) :
    val_main_v76 (F := Ideal) x0 x1 x2 x3 x4 (ix2 p q) = val_main_v67 (F := Ideal) x0 x1 x2 x3 x4 (ix2 p (⟨q.val + 1, by omega⟩ : Fin 2882)) := by
  rw [val_main_v76_apply]
  refine congrArg (val_main_v67 (F := Ideal) x0 x1 x2 x3 x4) (funext fun a => Fin.ext ?_)
  match a with
  | ⟨0, _⟩ => rfl
  | ⟨1, _⟩ => show 1 + q.val = q.val + 1; omega

/-- The padded rows cut at column offset 2, at (p, q), are the padded rows at (p, q + 2). -/
theorem ref_t2 (x0 : FVec Ideal S256x15x64x128x1 .f32) (x1 : FVec Ideal S3584x3 .f32) (x2 : FVec Ideal S3584 .f32) (x3 : FVec Ideal S2720x3 .f32) (x4 : FVec Ideal S2720 .f32) (p : Fin 256) (q : Fin 2880) :
    val_main_v83 (F := Ideal) x0 x1 x2 x3 x4 (ix2 p q) = val_main_v67 (F := Ideal) x0 x1 x2 x3 x4 (ix2 p (⟨q.val + 2, by omega⟩ : Fin 2882)) := by
  rw [val_main_v83_apply]
  refine congrArg (val_main_v67 (F := Ideal) x0 x1 x2 x3 x4) (funext fun a => Fin.ext ?_)
  match a with
  | ⟨0, _⟩ => rfl
  | ⟨1, _⟩ => show 2 + q.val = q.val + 2; omega

/-- The bias, broadcast over the rows, at (p, q) is bias q. -/
theorem ref_b (b : FVec Ideal S2880 .f32) (p : Fin 256) (q : Fin 2880) :
    val_main_v89 (F := Ideal) b (ix2 p q) = b (ix1 q) := by
  rw [val_main_v89_apply, val_main_v88_apply]
  refine congrArg b (funext fun a => Fin.ext ?_)
  match a with
  | ⟨0, _⟩ => rfl

/-- The rectifier's zero, broadcast, at any index is the zero word. -/
theorem ref_z (i : S256x2880.Idx) :
    val_main_call8_v0 (F := Ideal) i = Ideal.ofBits .f32 0x00000000#32 := by
  rw [val_main_call8_v0_apply]; rfl

/-! ## The two sides are one function -/

/-- Stage three: the kernel's layer over the lengthened rows and table, cut back to the 2880 real positions, is the
    reference's stage, as whole arrays. -/
theorem stage (x0 : FVec Ideal S256x15x64x128x1 .f32) (x1 : FVec Ideal S3584x3 .f32) (x2 : FVec Ideal S3584 .f32) (x3 : FVec Ideal S2720x3 .f32) (x4 : FVec Ideal S2720 .f32) (w : FVec Ideal S2880x3 .f32) (b : FVec Ideal S2880 .f32) :
    extractStridedSlice S256x2880 ![0, 0]
        (Taps.tapRelu (by omega : 2944 + 2 ≤ 2946) (padRows (val_main_v67 (F := Ideal) x0 x1 x2 x3 x4)) (table w b))
        slices_S256x2944_S256x2880_0_0
      = val_main_v91 (F := Ideal) x0 x1 x2 x3 x4 w b := by
  funext j
  obtain ⟨p, q, rfl⟩ : ∃ (p : Fin 256) (q : Fin 2880), j = ix2 p q := ⟨j 0, j 1, eq_ix2 j⟩
  have hq : q.val < 2880 := q.isLt
  refine (extractStridedSlice_apply ![0, 0] _ slices_S256x2944_S256x2880_0_0 (ix2 p q)
    (ix2 p (⟨q.val, by omega⟩ : Fin 2944)) ?_).trans ?_
  · intro a
    match a with
    | ⟨0, _⟩ => show p.val = 0 + p.val; omega
    | ⟨1, _⟩ => show q.val = 0 + q.val; omega
  rw [Taps.tapRelu_apply]
  unfold Taps.tapAt
  rw [table_w w b 0 (by decide) _ hq, table_w w b 1 (by decide) _ hq, table_w w b 2 (by decide) _ hq, table_b w b _ hq,
    padRows_apply _ p _ (show q.val < 2882 by omega), padRows_apply _ p _ (show q.val + 1 < 2882 by omega),
    padRows_apply _ p _ (show q.val + 2 < 2882 by omega)]
  rw [val_main_v91_apply, val_main_v90_apply, val_main_v87_apply, val_main_v80_apply, val_main_v73_apply,
    val_main_v79_apply, val_main_v86_apply, ref_w0, ref_w1, ref_w2, ref_t0, ref_t1, ref_t2, ref_b, ref_z]
  rfl

end Cert.Stage2

end
-- ==== Proof.Chain.lean ====
/-
  The idealized kernel's @main read from the launch memory to the result: the host operations before, between
  and after the three regions are the reference's own (the same reshapes, sums, pads and transposes), and each
  region with the table built for it is the reference's stage (Stage0, Stage1, Stage2), so every boundary's
  contents at the buffers that matter are the reference's stages of the arguments.
-/
import proofs.«148199_j3393024163963_2_alg».proof.Proof.Gen.KernelIdeal.Frame
import proofs.«148199_j3393024163963_2_alg».proof.Proof.Gen.ReferenceIdeal.Read
import proofs.«148199_j3393024163963_2_alg».proof.Proof.Region0
import proofs.«148199_j3393024163963_2_alg».proof.Proof.Region1
import proofs.«148199_j3393024163963_2_alg».proof.Proof.Region2
import proofs.«148199_j3393024163963_2_alg».proof.Proof.Stage0
import proofs.«148199_j3393024163963_2_alg».proof.Proof.Stage1
import proofs.«148199_j3393024163963_2_alg».proof.Proof.Stage2
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-- Unfold the boundaries from the launch to region 0's entry, and the stretches between them. -/
macro "open_pre0" : tactic => `(tactic| dsimp only [W5, W4, W3, W2, W1, hostOps0_4, hostOps0_3, hostOps0_2, hostOps0_1, hostOps0])
/-- Unfold the boundaries from region 0's exit to region 1's entry. -/
macro "open_pre1" : tactic => `(tactic| dsimp only [W17, W16, W15, W14, W13, W12, W11, W10, W9, W8, W7, hostOps1_10, hostOps1_9, hostOps1_8, hostOps1_7, hostOps1_6, hostOps1_5, hostOps1_4, hostOps1_3, hostOps1_2, hostOps1_1, hostOps1])
/-- Unfold the boundaries from region 1's exit to region 2's entry. -/
macro "open_pre2" : tactic => `(tactic| dsimp only [W29, W28, W27, W26, W25, W24, W23, W22, W21, W20, W19, hostOps2_10, hostOps2_9, hostOps2_8, hostOps2_7, hostOps2_6, hostOps2_5, hostOps2_4, hostOps2_3, hostOps2_2, hostOps2_1, hostOps2])

/-! ## The arguments at the regions' boundaries are the launch contents -/

theorem W5_arg1 : W5 m ρ c (Proc.devRef .tc main_arg1) = m ((c : Thread nD τ).loc main_arg1) := by
  open_pre0; after_results <;> rfl
theorem W5_arg2 : W5 m ρ c (Proc.devRef .tc main_arg2) = m ((c : Thread nD τ).loc main_arg2) := by
  open_pre0; after_results <;> rfl
theorem W5_arg3 : W5 m ρ c (Proc.devRef .tc main_arg3) = m ((c : Thread nD τ).loc main_arg3) := by
  open_pre0; after_results <;> rfl
theorem W5_arg4 : W5 m ρ c (Proc.devRef .tc main_arg4) = m ((c : Thread nD τ).loc main_arg4) := by
  open_pre0; after_results <;> rfl
theorem W5_arg5 : W5 m ρ c (Proc.devRef .tc main_arg5) = m ((c : Thread nD τ).loc main_arg5) := by
  open_pre0; after_results <;> rfl
theorem W5_arg6 : W5 m ρ c (Proc.devRef .tc main_arg6) = m ((c : Thread nD τ).loc main_arg6) := by
  open_pre0; after_results <;> rfl
theorem W6_arg3 : W6 m ρ c (Proc.devRef .tc main_arg3) = m ((c : Thread nD τ).loc main_arg3) :=
  (W6_of_ne m ρ c main_arg3 (by decide)).trans (W5_arg3 m ρ c)
theorem W6_arg4 : W6 m ρ c (Proc.devRef .tc main_arg4) = m ((c : Thread nD τ).loc main_arg4) :=
  (W6_of_ne m ρ c main_arg4 (by decide)).trans (W5_arg4 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W17_arg5 : W17 m ρ c (Proc.devRef .tc main_arg5) = m ((c : Thread nD τ).loc main_arg5) := by
  open_pre1; after_results; exact W6_arg5 m ρ c
theorem W18_arg5 : W18 m ρ c (Proc.devRef .tc main_arg5) = m ((c : Thread nD τ).loc main_arg5) :=
  (W18_of_ne m ρ c main_arg5 (by decide)).trans (W17_arg5 m ρ c)
theorem W17_arg6 : W17 m ρ c (Proc.devRef .tc main_arg6) = m ((c : Thread nD τ).loc main_arg6) := by
  open_pre1; after_results; exact W6_arg6 m ρ c
theorem W18_arg6 : W18 m ρ c (Proc.devRef .tc main_arg6) = m ((c : Thread nD τ).loc main_arg6) :=
  (W18_of_ne m ρ c main_arg6 (by decide)).trans (W17_arg6 m ρ c)

/-! ## Stage one -/

/-- Region 0 is entered with the reference's padded rows in window 0's array. -/
theorem entry0_x : W5 m ρ c (Proc.devRef .tc main_v7) = val_main_v7 (F := Ideal) (m ((c : Thread nD τ).loc main_arg0)) := by
  open_pre0; after_results <;> rfl

/-- … and the four-row table of the first weights and bias in window 1's array. -/
theorem entry0_t : W5 m ρ c (Proc.devRef .tc main_v10) = Cert.Stage0.table (m ((c : Thread nD τ).loc main_arg1)) (m ((c : Thread nD τ).loc main_arg2)) := by
  open_pre0; after_results <;> rfl

/-- Region 0 leaves the reference's first stage in its output array. -/
theorem exit0 : W6 m ρ c (Proc.devRef .tc main_v11) = val_main_v31 (F := Ideal) (m ((c : Thread nD τ).loc main_arg0)) (m ((c : Thread nD τ).loc main_arg1)) (m ((c : Thread nD τ).loc main_arg2)) := by
  refine (W6_arr m ρ c 2).trans ((Cert.KernelIdeal.Region0.final (V5 m ρ) c).trans ?_)
  show Cert.Taps.tapRelu _ (W5 m ρ c (Proc.devRef .tc main_v7)) (W5 m ρ c (Proc.devRef .tc main_v10)) = _
  rw [entry0_x, entry0_t]
  exact Cert.Stage0.stage _ _ _

/-! ## Stage two -/

theorem entry1_x : W17 m ρ c (Proc.devRef .tc main_v18) = Cert.Stage1.padRows (val_main_v37 (F := Ideal) (m ((c : Thread nD τ).loc main_arg0)) (m ((c : Thread nD τ).loc main_arg1)) (m ((c : Thread nD τ).loc main_arg2))) := by
  open_pre1; after_results; rw [exit0 m ρ c]; rfl

set_option maxHeartbeats 1000000 in
theorem entry1_t : W17 m ρ c (Proc.devRef .tc main_v23) = Cert.Stage1.table (m ((c : Thread nD τ).loc main_arg3)) (m ((c : Thread nD τ).loc main_arg4)) := by
  open_pre1; after_results; rw [W6_arg3 m ρ c, W6_arg4 m ρ c]; rfl

/-- Region 1's output array, cut back to the 2720 real positions, is the reference's second stage. -/
theorem exit1 : extractStridedSlice S256x2720 ![0, 0] (W18 m ρ c (Proc.devRef .tc main_v24)) slices_S256x2816_S256x2720_0_0
    = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [show W18 m ρ c (Proc.devRef .tc main_v24)
      = Cert.Taps.tapRelu (by omega : 2816 + 2 ≤ 2818) (W17 m ρ c (Proc.devRef .tc main_v18)) (W17 m ρ c (Proc.devRef .tc main_v23))
    from (W18_arr m ρ c 2).trans (Cert.KernelIdeal.Region1.final (V17 m ρ) c)]
  rw [entry1_x, entry1_t]
  exact Cert.Stage1.stage _ _ _ _ _

/-! ## Stage three -/

theorem entry2_x : W29 m ρ c (Proc.devRef .tc main_v32) = Cert.Stage2.padRows (val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  open_pre2; after_results; rw [exit1 m ρ c]; rfl

set_option maxHeartbeats 1000000 in
theorem entry2_t : W29 m ρ c (Proc.devRef .tc main_v37) = Cert.Stage2.table (m ((c : Thread nD τ).loc main_arg5)) (m ((c : Thread nD τ).loc main_arg6)) := by
  open_pre2; after_results; rw [W18_arg5 m ρ c, W18_arg6 m ρ c]; rfl

/-- Region 2's output array, cut back to the 2880 real positions, is the reference's third stage. -/
theorem exit2 : extractStridedSlice S256x2880 ![0, 0] (W30 m ρ c (Proc.devRef .tc main_v38)) slices_S256x2944_S256x2880_0_0
    = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W30 m ρ c (Proc.devRef .tc main_v38)
      = Cert.Taps.tapRelu (by omega : 2944 + 2 ≤ 2946) (W29 m ρ c (Proc.devRef .tc main_v32)) (W29 m ρ c (Proc.devRef .tc main_v37))
    from (W30_arr m ρ c 2).trans (Cert.KernelIdeal.Region2.final (V29 m ρ) c)]
  rw [entry2_x, entry2_t]
  exact Cert.Stage2.stage _ _ _ _ _ _ _

/-! ## The result -/

/-- The last boundary's contents at the result buffer: the reference's result of the arguments. -/
theorem result : W31 m ρ c (Proc.devRef .tc main_v45) = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  dsimp only [W31, hostOps3]; after_results; rw [exit2 m ρ c]; rfl

end Cert.KernelIdeal.Chain

end
-- ==== Proof.lean ====
/-
  The certificate of a network of three locally connected layers between an average pooling and a
  nearest-neighbour upsampling. Both programs run the same host operations around the layers; the kernel
  runs each layer as a gridded region over a four-row table of (lengthened) weights and bias, the reference as
  shifted copies, broadcasts, products and sums on the host. Layer by layer the two are one function of the
  padded rows, the weights and the bias (Stage0, Stage1, Stage2, over Taps), each region leaves that function in
  its output array (Region0, Region1, Region2), and the boundaries' contents through @main compose them (Chain).
  The idealization rewrote nothing, so the preservation claim is trivial; the three frames are the programs'
  runs with the results dropped.
-/
import proofs.«148199_j3393024163963_2_alg».proof.Defs
import proofs.«148199_j3393024163963_2_alg».proof.Proof.Gen.Kernel
import proofs.«148199_j3393024163963_2_alg».proof.Proof.Gen.Kernel.Skeleton
import proofs.«148199_j3393024163963_2_alg».proof.Proof.Gen.Kernel.Launch
import proofs.«148199_j3393024163963_2_alg».proof.Proof.Gen.Kernel.Points
import proofs.«148199_j3393024163963_2_alg».proof.Proof.Gen.Kernel.Frame
import proofs.«148199_j3393024163963_2_alg».proof.Proof.Gen.KernelIdeal
import proofs.«148199_j3393024163963_2_alg».proof.Proof.Gen.KernelIdeal.Skeleton
import proofs.«148199_j3393024163963_2_alg».proof.Proof.Gen.KernelIdeal.Launch
import proofs.«148199_j3393024163963_2_alg».proof.Proof.Gen.KernelIdeal.Points
import proofs.«148199_j3393024163963_2_alg».proof.Proof.Gen.KernelIdeal.Frame
import proofs.«148199_j3393024163963_2_alg».proof.Proof.Gen.ReferenceIdeal
import proofs.«148199_j3393024163963_2_alg».proof.Proof.Gen.Pre_finite_inputs
import proofs.«148199_j3393024163963_2_alg».proof.Proof.Gen.ReferenceIdeal.Run
import proofs.«148199_j3393024163963_2_alg».proof.Proof.Gen.ReferenceIdeal.Read
import proofs.«148199_j3393024163963_2_alg».proof.Proof.KernelRun
import proofs.«148199_j3393024163963_2_alg».proof.Proof.Chain
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the reference's result term of the (agreeing) arguments in the result buffer. -/
theorem algebraic : Cert.algebraic_KernelIdeal_ReferenceIdeal := by
  intro m ρ m' ρ' _ hagree
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Chain.result m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
